-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x10000x10000x1 : Shape := ⟨4, ![1, 10000, 10000, 1]⟩
abbrev S3x1x1 : Shape := ⟨3, ![3, 1, 1]⟩
abbrev S1 : Shape := ⟨1, ![1]⟩
abbrev S_ : Shape := ⟨0, ![]⟩

class Facts : Prop where
  bcast_S_S1x10000x10000x1 : S_.BroadcastsInDim S1x10000x10000x1 (![] : Fin 0 → Fin S1x10000x10000x1.rank)
  reducesTo_S1x10000x10000x1_S_d0_1_2_3 : S1x10000x10000x1.ReducesTo [0, 1, 2, 3] S_
  h_S_ : 0 < S_.numel
  bcast_S_S3x1x1 : S_.BroadcastsInDim S3x1x1 (![] : Fin 0 → Fin S3x1x1.rank)
  reducesTo_S3x1x1_S_d0_1_2 : S3x1x1.ReducesTo [0, 1, 2] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S3x1x1 1) : IVec S_ 1 :=
  let main_c_5 : IVec S_ 1 := constantI S_ 1 1#1
  let main_v17 : IVec S_ 1 := (fun x v => Host.reduce IntOp.andi x v reducesTo_S3x1x1_S_d0_1_2 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S1x10000x10000x1 .f32) (main_arg1 : FVec F S3x1x1 .f32) (main_arg2 : FVec F S1 .f32) (main_arg3 : FVec F S3x1x1 .f32) (main_arg4 : FVec F S1 .f32) : IVec S_ 1 :=
  let main_v0 : FVec F S1x10000x10000x1 .f32 := Host.absf main_arg0
  let main_cst : FVec F S_ .f32 := constant S_ .f32 0x7F800000#32
  let main_v1 : FVec F S1x10000x10000x1 .f32 := broadcastInDim S1x10000x10000x1 ![] bcast_S_S1x10000x10000x1 main_cst
  let main_v2 : IVec S1x10000x10000x1 1 := cmpf .olt main_v0 main_v1
  let main_c : IVec S_ 1 := constantI S_ 1 1#1
  let main_v3 : IVec S_ 1 := (fun x v => Host.reduce IntOp.andi x v reducesTo_S1x10000x10000x1_S_d0_1_2_3 h_S_) main_v2 main_c
  let main_v4 : FVec F S3x1x1 .f32 := Host.absf main_arg1
  let main_cst_0 : FVec F S_ .f32 := constant S_ .f32 0x7F800000#32
  let main_v5 : FVec F S3x1x1 .f32 := broadcastInDim S3x1x1 ![] bcast_S_S3x1x1 main_cst_0
  let main_v6 : IVec S3x1x1 1 := cmpf .olt main_v4 main_v5
  let main_c_1 : IVec S_ 1 := constantI S_ 1 1#1
  let main_v7 : IVec S_ 1 := (fun x v => Host.reduce IntOp.andi x v reducesTo_S3x1x1_S_d0_1_2 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S3x1x1 .f32 := Host.absf main_arg3
  let main_cst_4 : FVec F S_ .f32 := constant S_ .f32 0x7F800000#32
  let main_v15 : FVec F S3x1x1 .f32 := broadcastInDim S3x1x1 ![] bcast_S_S3x1x1 main_cst_4
  let main_v16 : IVec S3x1x1 1 := cmpf .olt main_v14 main_v15
  fn_part1 (F := F) main_arg4 main_v13 main_v16
-- ==== Kernel.lean ====
abbrev S1x10000x10000x1 : Shape := ⟨4, ![1, 10000, 10000, 1]⟩
abbrev S3x1x1 : Shape := ⟨3, ![3, 1, 1]⟩
abbrev S1 : Shape := ⟨1, ![1]⟩
abbrev S25x400x10000 : Shape := ⟨3, ![25, 400, 10000]⟩
abbrev S_ : Shape := ⟨0, ![]⟩
abbrev S10000 : Shape := ⟨1, ![10000]⟩
abbrev S10000x1 : Shape := ⟨2, ![10000, 1]⟩
abbrev S1x10000 : Shape := ⟨2, ![1, 10000]⟩
abbrev S25x1x400 : Shape := ⟨3, ![25, 1, 400]⟩
abbrev S1x400x10000 : Shape := ⟨3, ![1, 400, 10000]⟩
abbrev S1x1x400 : Shape := ⟨3, ![1, 1, 400]⟩
abbrev S400x10000 : Shape := ⟨2, ![400, 10000]⟩
abbrev S400 : Shape := ⟨1, ![400]⟩
abbrev S1x1x1 : Shape := ⟨3, ![1, 1, 1]⟩
abbrev S1x1 : Shape := ⟨2, ![1, 1]⟩
abbrev S1x10000x1 : Shape := ⟨3, ![1, 10000, 1]⟩

abbrev nBuf : Space → Nat
  | .hbm => 115
  | .vmem => 20
  | .smem => 0
  | _ => 0

abbrev bufTy : (tb : Table) → Fin (tcTables nBuf tb) → BufTy
  | .hbm, ⟨0, _⟩ => ⟨S1x10000x10000x1, .f32⟩
  | .hbm, ⟨1, _⟩ => ⟨S3x1x1, .f32⟩
  | .hbm, ⟨2, _⟩ => ⟨S1, .f32⟩
  | .hbm, ⟨3, _⟩ => ⟨S3x1x1, .f32⟩
  | .hbm, ⟨4, _⟩ => ⟨S1, .f32⟩
  | .hbm, ⟨5, _⟩ => ⟨S1x10000x10000x1, .bf16⟩
  | .hbm, ⟨6, _⟩ => ⟨S25x400x10000, .bf16⟩
  | .hbm, ⟨7, _⟩ => ⟨S_, .f32⟩
  | .hbm, ⟨8, _⟩ => ⟨S10000, .f32⟩
  | .hbm, ⟨9, _⟩ => ⟨S_, .f32⟩
  | .hbm, ⟨10, _⟩ => ⟨S10000, .f32⟩
  | .hbm, ⟨11, _⟩ => ⟨S10000, .i1⟩
  | .hbm, ⟨12, _⟩ => ⟨S_, .f32⟩
  | .hbm, ⟨13, _⟩ => ⟨S10000, .f32⟩
  | .hbm, ⟨14, _⟩ => ⟨S10000, .f32⟩
  | .hbm, ⟨15, _⟩ => ⟨S10000, .f32⟩
  | .hbm, ⟨16, _⟩ => ⟨S_, .f32⟩
  | .hbm, ⟨17, _⟩ => ⟨S10000, .f32⟩
  | .hbm, ⟨18, _⟩ => ⟨S10000, .f32⟩
  | .hbm, ⟨19, _⟩ => ⟨S_, .f32⟩
  | .hbm, ⟨20, _⟩ => ⟨S_, .f32⟩
  | .hbm, ⟨21, _⟩ => ⟨S10000, .f32⟩
  | .hbm, ⟨22, _⟩ => ⟨S10000, .f32⟩
  | .hbm, ⟨23, _⟩ => ⟨S_, .f32⟩
  | .hbm, ⟨24, _⟩ => ⟨S10000x1, .f32⟩
  | .hbm, ⟨25, _⟩ => ⟨S10000x1, .f32⟩
  | .hbm, ⟨26, _⟩ => ⟨S10000x1, .f32⟩
  | .hbm, ⟨27, _⟩ => ⟨S10000x1, .bf16⟩
  | .hbm, ⟨28, _⟩ => ⟨S1x10000, .bf16⟩
  | .hbm, ⟨29, _⟩ => ⟨S25x1x400, .f32⟩
  | .hbm, ⟨30, _⟩ => ⟨S10000x1, .f32⟩
  | .hbm, ⟨31, _⟩ => ⟨S10000x1, .f32⟩
  | .hbm, ⟨32, _⟩ => ⟨S10000x1, .f32⟩
  | .hbm, ⟨33, _⟩ => ⟨S10000x1, .f32⟩
  | .hbm, ⟨34, _⟩ => ⟨S10000x1, .f32⟩
  | .hbm, ⟨35, _⟩ => ⟨S10000x1, .f32⟩
  | .hbm, ⟨36, _⟩ => ⟨S10000x1, .bf16⟩
  | .hbm, ⟨37, _⟩ => ⟨S1x10000, .bf16⟩
  | .hbm, ⟨38, _⟩ => ⟨S25x1x400, .f32⟩
  | .hbm, ⟨39, _⟩ => ⟨S10000x1, .f32⟩
  | .hbm, ⟨40, _⟩ => ⟨S10000x1, .f32⟩
  | .hbm, ⟨41, _⟩ => ⟨S10000x1, .f32⟩
  | .hbm, ⟨42, _⟩ => ⟨S10000x1, .f32⟩
  | .hbm, ⟨43, _⟩ => ⟨S_, .f32⟩
  | .hbm, ⟨44, _⟩ => ⟨S10000x1, .f32⟩
  | .hbm, ⟨45, _⟩ => ⟨S10000x1, .f32⟩
  | .hbm, ⟨46, _⟩ => ⟨S10000x1, .f32⟩
  | .hbm, ⟨47, _⟩ => ⟨S1x1x1, .f32⟩
  | .hbm, ⟨48, _⟩ => ⟨S1x1, .f32⟩
  | .hbm, ⟨49, _⟩ => ⟨S10000x1, .f32⟩
  | .hbm, ⟨50, _⟩ => ⟨S1x1x1, .f32⟩
  | .hbm, ⟨51, _⟩ => ⟨S1x1, .f32⟩
  | .hbm, ⟨52, _⟩ => ⟨S10000x1, .f32⟩
  | .hbm, ⟨53, _⟩ => ⟨S10000x1, .f32⟩
  | .hbm, ⟨54, _⟩ => ⟨S1x1x1, .f32⟩
  | .hbm, ⟨55, _⟩ => ⟨S1x1, .f32⟩
  | .hbm, ⟨56, _⟩ => ⟨S10000x1, .f32⟩
  | .hbm, ⟨57, _⟩ => ⟨S10000x1, .f32⟩
  | .hbm, ⟨58, _⟩ => ⟨S1x1, .f32⟩
  | .hbm, ⟨59, _⟩ => ⟨S10000x1, .f32⟩
  | .hbm, ⟨60, _⟩ => ⟨S10000x1, .f32⟩
  | .hbm, ⟨61, _⟩ => ⟨S10000x1, .f32⟩
  | .hbm, ⟨62, _⟩ => ⟨S10000x1, .f32⟩
  | .hbm, ⟨63, _⟩ => ⟨S10000x1, .bf16⟩
  | .hbm, ⟨64, _⟩ => ⟨S1x10000, .bf16⟩
  | .hbm, ⟨65, _⟩ => ⟨S25x1x400, .f32⟩
  | .hbm, ⟨66, _⟩ => ⟨S10000x1, .f32⟩
  | .hbm, ⟨67, _⟩ => ⟨S10000x1, .f32⟩
  | .hbm, ⟨68, _⟩ => ⟨S10000x1, .f32⟩
  | .hbm, ⟨69, _⟩ => ⟨S10000x1, .f32⟩
  | .hbm, ⟨70, _⟩ => ⟨S10000x1, .f32⟩
  | .hbm, ⟨71, _⟩ => ⟨S10000x1, .f32⟩
  | .hbm, ⟨72, _⟩ => ⟨S10000x1, .bf16⟩
  | .hbm, ⟨73, _⟩ => ⟨S1x10000, .bf16⟩
  | .hbm, ⟨74, _⟩ => ⟨S25x1x400, .f32⟩
  | .hbm, ⟨75, _⟩ => ⟨S10000x1, .f32⟩
  | .hbm, ⟨76, _⟩ => ⟨S10000x1, .f32⟩
  | .hbm, ⟨77, _⟩ => ⟨S10000x1, .f32⟩
  | .hbm, ⟨78, _⟩ => ⟨S10000x1, .f32⟩
  | .hbm, ⟨79, _⟩ => ⟨S_, .f32⟩
  | .hbm, ⟨80, _⟩ => ⟨S10000x1, .f32⟩
  | .hbm, ⟨81, _⟩ => ⟨S10000x1, .f32⟩
  | .hbm, ⟨82, _⟩ => ⟨S10000x1, .f32⟩
  | .hbm, ⟨83, _⟩ => ⟨S1x1x1, .f32⟩
  | .hbm, ⟨84, _⟩ => ⟨S1x1, .f32⟩
  | .hbm, ⟨85, _⟩ => ⟨S10000x1, .f32⟩
  | .hbm, ⟨86, _⟩ => ⟨S1x1x1, .f32⟩
  | .hbm, ⟨87, _⟩ => ⟨S1x1, .f32⟩
  | .hbm, ⟨88, _⟩ => ⟨S10000x1, .f32⟩
  | .hbm, ⟨89, _⟩ => ⟨S10000x1, .f32⟩
  | .hbm, ⟨90, _⟩ => ⟨S1x1x1, .f32⟩
  | .hbm, ⟨91, _⟩ => ⟨S1x1, .f32⟩
  | .hbm, ⟨92, _⟩ => ⟨S10000x1, .f32⟩
  | .hbm, ⟨93, _⟩ => ⟨S10000x1, .f32⟩
  | .hbm, ⟨94, _⟩ => ⟨S1x1, .f32⟩
  | .hbm, ⟨95, _⟩ => ⟨S10000x1, .f32⟩
  | .hbm, ⟨96, _⟩ => ⟨S10000x1, .f32⟩
  | .hbm, ⟨97, _⟩ => ⟨S1x10000x1, .f32⟩
  | .hbm, ⟨98, _⟩ => ⟨S_, .f32⟩
  | .hbm, ⟨99, _⟩ => ⟨S10000x1, .f32⟩
  | .hbm, ⟨100, _⟩ => ⟨S_, .f32⟩
  | .hbm, ⟨101, _⟩ => ⟨S10000x1, .f32⟩
  | .hbm, ⟨102, _⟩ => ⟨S10000x1, .f32⟩
  | .hbm, ⟨103, _⟩ => ⟨S_, .f32⟩
  | .hbm, ⟨104, _⟩ => ⟨S10000, .f32⟩
  | .hbm, ⟨105, _⟩ => ⟨S_, .f32⟩
  | .hbm, ⟨106, _⟩ => ⟨S10000, .f32⟩
  | .hbm, ⟨107, _⟩ => ⟨S10000, .f32⟩
  | .hbm, ⟨108, _⟩ => ⟨S_, .f32⟩
  | .hbm, ⟨109, _⟩ => ⟨S10000, .f32⟩
  | .hbm, ⟨110, _⟩ => ⟨S10000, .f32⟩
  | .hbm, ⟨111, _⟩ => ⟨S_, .f32⟩
  | .hbm, ⟨112, _⟩ => ⟨S10000, .f32⟩
  | .hbm, ⟨113, _⟩ => ⟨S10000, .f32⟩
  | .hbm, ⟨114, _⟩ => ⟨S1x10000, .f32⟩
  | .local _ .vmem, ⟨0, _⟩ => ⟨S1x400x10000, .bf16⟩
  | .local _ .vmem, ⟨1, _⟩ => ⟨S1x400x10000, .bf16⟩
  | .local _ .vmem, ⟨2, _⟩ => ⟨S1x10000, .bf16⟩
  | .local _ .vmem, ⟨3, _⟩ => ⟨S1x1x400, .f32⟩
  | .local _ .vmem, ⟨4, _⟩ => ⟨S1x1x400, .f32⟩
  | .local _ .vmem, ⟨5, _⟩ => ⟨S1x400x10000, .bf16⟩
  | .local _ .vmem, ⟨6, _⟩ => ⟨S1x400x10000, .bf16⟩
  | .local _ .vmem, ⟨7, _⟩ => ⟨S1x10000, .bf16⟩
  | .local _ .vmem, ⟨8, _⟩ => ⟨S1x1x400, .f32⟩
  | .local _ .vmem, ⟨9, _⟩ => ⟨S1x1x400, .f32⟩
  | .local _ .vmem, ⟨10, _⟩ => ⟨S1x400x10000, .bf16⟩
  | .local _ .vmem, ⟨11, _⟩ => ⟨S1x400x10000, .bf16⟩
  | .local _ .vmem, ⟨12, _⟩ => ⟨S1x10000, .bf16⟩
  | .local _ .vmem, ⟨13, _⟩ => ⟨S1x1x400, .f32⟩
  | .local _ .vmem, ⟨14, _⟩ => ⟨S1x1x400, .f32⟩
  | .local _ .vmem, ⟨15, _⟩ => ⟨S1x400x10000, .bf16⟩
  | .local _ .vmem, ⟨16, _⟩ => ⟨S1x400x10000, .bf16⟩
  | .local _ .vmem, ⟨17, _⟩ => ⟨S1x10000, .bf16⟩
  | .local _ .vmem, ⟨18, _⟩ => ⟨S1x1x400, .f32⟩
  | .local _ .vmem, ⟨19, _⟩ => ⟨S1x1x400, .f32⟩
  | _, _ => ⟨S1x10000x10000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_call0_v0 : Ref sig .tc := ⟨.hbm, 20, rfl⟩
abbrev main_call0_v1 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_cst_6 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_cst_7 : Ref sig .tc := ⟨.hbm, 98, rfl⟩
abbrev main_v83 : Ref sig .tc := ⟨.hbm, 99, rfl⟩
abbrev main_cst_8 : Ref sig .tc := ⟨.hbm, 100, rfl⟩
abbrev main_v84 : Ref sig .tc := ⟨.hbm, 101, rfl⟩
abbrev main_v85 : Ref sig .tc := ⟨.hbm, 102, rfl⟩
abbrev main_cst_9 : Ref sig .tc := ⟨.hbm, 103, rfl⟩
abbrev main_v86 : Ref sig .tc := ⟨.hbm, 104, rfl⟩
abbrev main_cst_10 : Ref sig .tc := ⟨.hbm, 105, rfl⟩
abbrev main_v87 : Ref sig .tc := ⟨.hbm, 106, rfl⟩
abbrev main_v88 : Ref sig .tc := ⟨.hbm, 107, rfl⟩
abbrev main_call1_cst : Ref sig .tc := ⟨.hbm, 108, rfl⟩
abbrev main_call1_v0 : Ref sig .tc := ⟨.hbm, 109, rfl⟩
abbrev main_v89 : Ref sig .tc := ⟨.hbm, 110, rfl⟩
abbrev main_cst_11 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x400x10000 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x10000 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x400 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x400x10000 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x10000 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x1x400 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x400x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x10000 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1x1x400 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x400x10000 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x10000 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S1x1x400 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  bitsLt_bf16_f32 : FTy.bits .bf16 < FTy.bits .f32
  shapeCasts_S1x10000x10000x1_S25x400x10000 : S1x10000x10000x1.ShapeCasts S25x400x10000
  reducesTo_S1x10000x10000x1_S10000_d0_2_3 : S1x10000x10000x1.ReducesTo [0, 2, 3] S10000
  h_S_ : 0 < S_.numel
  bcast_S_S10000 : S_.BroadcastsInDim S10000 (![] : Fin 0 → Fin S10000.rank)
  bcast_S_S10000x1 : S_.BroadcastsInDim S10000x1 (![] : Fin 0 → Fin S10000x1.rank)
  bcast_S10000_S10000x1_0 : S10000.BroadcastsInDim S10000x1 (![0] : Fin 1 → Fin S10000x1.rank)
  shapeCasts_S10000x1_S1x10000 : S10000x1.ShapeCasts S1x10000
  inb_S1x400x10000_S1x400x10000_0_0_0 : ∀ a, (![0, 0, 0] : Fin 3 → Nat) a + S1x400x10000.size a ≤ S1x400x10000.size a
  h_S1x400x10000 : 0 < S1x400x10000.numel
  shapeCasts_S1x400x10000_S400x10000 : S1x400x10000.ShapeCasts S400x10000
  inb_S1x10000_S1x10000_0_0 : ∀ a, (![0, 0] : Fin 2 → Nat) a + S1x10000.size a ≤ S1x10000.size a
  h_S1x10000 : 0 < S1x10000.numel
  shapeCasts_S1x10000_S10000 : S1x10000.ShapeCasts S10000
  shapeCasts_S10000_S1x10000 : S10000.ShapeCasts S1x10000
  broadcasts_S1x10000_S400x10000 : S1x10000.Broadcasts S400x10000
  reduces_S400x10000_S400 : S400x10000.Reduces [1] S400
  inb_S1x1x400_S1x1x400_0_0_0 : ∀ a, (![0, 0, 0] : Fin 3 → Nat) a + S1x1x400.size a ≤ S1x1x400.size a
  h_S1x1x400 : 0 < S1x1x400.numel
  shapeCasts_S1x1x400_S400 : S1x1x400.ShapeCasts S400
  shapeCasts_S400_S1x1x400 : S400.ShapeCasts S1x1x400
  shapeCasts_S25x1x400_S10000x1 : S25x1x400.ShapeCasts S10000x1
  slices_S3x1x1_S1x1x1_0_0_0 : S3x1x1.Slices ![0, 0, 0] S1x1x1
  shapeCasts_S1x1x1_S1x1 : S1x1x1.ShapeCasts S1x1
  slices_S3x1x1_S1x1x1_1_0_0 : S3x1x1.Slices ![1, 0, 0] S1x1x1
  slices_S3x1x1_S1x1x1_2_0_0 : S3x1x1.Slices ![2, 0, 0] S1x1x1
  bcast_S1_S1x1_1 : S1.BroadcastsInDim S1x1 (![1] : Fin 1 → Fin S1x1.rank)
  bcast_S1x1_S10000x1_0_1 : S1x1.BroadcastsInDim S10000x1 (![0, 1] : Fin 2 → Fin S10000x1.rank)
  bcast_S10000x1_S1x10000x1_1_2 : S10000x1.BroadcastsInDim S1x10000x1 (![1, 2] : Fin 2 → Fin S1x10000x1.rank)
  reducesTo_S1x10000x1_S10000x1_d0 : S1x10000x1.ReducesTo [0] S10000x1
  reducesTo_S10000x1_S10000_d1 : S10000x1.ReducesTo [1] S10000
  dot_S10000x1_S1x1_S10000x1_1_0_0_1_n_n_wf : DotDims.WF S10000x1 S1x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x400x10000.size a ≤ S25x400x10000.size a
  hwx0_0 : ∀ i : grid0.Coords, EltTy.bits .bf16 = 32 ∨ (Rect.block (s := S25x400x10000) S1x400x10000.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x10000.size a ≤ S1x10000.size a
  hwx0_1 : ∀ i : grid0.Coords, EltTy.bits .bf16 = 32 ∨ (Rect.block (s := S1x10000) S1x10000.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x400.size a ≤ S25x1x400.size a
  hwx0_2 : ∀ i : grid0.Coords, EltTy.bits .f32 = 32 ∨ (Rect.block (s := S25x1x400) S1x1x400.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x400x10000.size a ≤ S25x400x10000.size a
  hwx1_0 : ∀ i : grid1.Coords, EltTy.bits .bf16 = 32 ∨ (Rect.block (s := S25x400x10000) S1x400x10000.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x10000.size a ≤ S1x10000.size a
  hwx1_1 : ∀ i : grid1.Coords, EltTy.bits .bf16 = 32 ∨ (Rect.block (s := S1x10000) S1x10000.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x400.size a ≤ S25x1x400.size a
  hwx1_2 : ∀ i : grid1.Coords, EltTy.bits .f32 = 32 ∨ (Rect.block (s := S25x1x400) S1x1x400.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x400x10000.size a ≤ S25x400x10000.size a
  hwx2_0 : ∀ i : grid2.Coords, EltTy.bits .bf16 = 32 ∨ (Rect.block (s := S25x400x10000) S1x400x10000.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x10000.size a ≤ S1x10000.size a
  hwx2_1 : ∀ i : grid2.Coords, EltTy.bits .bf16 = 32 ∨ (Rect.block (s := S1x10000) S1x10000.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1x400.size a ≤ S25x1x400.size a
  hwx2_2 : ∀ i : grid2.Coords, EltTy.bits .f32 = 32 ∨ (Rect.block (s := S25x1x400) S1x1x400.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x400x10000.size a ≤ S25x400x10000.size a
  hwx3_0 : ∀ i : grid3.Coords, EltTy.bits .bf16 = 32 ∨ (Rect.block (s := S25x400x10000) S1x400x10000.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x10000.size a ≤ S1x10000.size a
  hwx3_1 : ∀ i : grid3.Coords, EltTy.bits .bf16 = 32 ∨ (Rect.block (s := S1x10000) S1x10000.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x1x400.size a ≤ S25x1x400.size a
  hwx3_2 : ∀ i : grid3.Coords, EltTy.bits .f32 = 32 ∨ (Rect.block (s := S25x1x400) S1x1x400.size (cc3_transform_2 i) (hinb3_2 i)).WholeWords (EltTy.packing .f32)

variable [Facts₀]

def dot_S10000x1_S1x1_S10000x1_1_0_0_1_n_n : DotDims S10000x1 S1x1 S10000x1 where
  lhsContracting := [1]
  rhsContracting := [0]
  lhsNonContracting := [0]
  rhsNonContracting := [1]
  lhsBatch := []
  rhsBatch := []
  wf := dot_S10000x1_S1x1_S10000x1_1_0_0_1_n_n_wf

abbrev win0_0 : Pipeline.Window sig grid0 :=
  Pipeline.Window.ofSpec (Memref.whole main_v1) S1x400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S1x10000.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x1x400.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S1x400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S1x10000.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v25) S1x1x400.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v1) S1x400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S1x10000.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v51) S1x1x400.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v1) S1x400x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59) S1x10000.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60) S1x1x400.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S1x10000x10000x1 : Shape := ⟨4, ![1, 10000, 10000, 1]⟩
abbrev S3x1x1 : Shape := ⟨3, ![3, 1, 1]⟩
abbrev S1 : Shape := ⟨1, ![1]⟩
abbrev S1x1x10000x10000 : Shape := ⟨4, ![1, 1, 10000, 10000]⟩
abbrev S1x10000x10000 : Shape := ⟨3, ![1, 10000, 10000]⟩
abbrev S10000x10000 : Shape := ⟨2, ![10000, 10000]⟩
abbrev S_ : Shape := ⟨0, ![]⟩
abbrev S10000 : Shape := ⟨1, ![10000]⟩
abbrev S1x10000x1 : Shape := ⟨3, ![1, 10000, 1]⟩
abbrev S10000x1 : Shape := ⟨2, ![10000, 1]⟩
abbrev S1x1x1 : Shape := ⟨3, ![1, 1, 1]⟩
abbrev S1x1 : Shape := ⟨2, ![1, 1]⟩
abbrev S1x10000 : Shape := ⟨2, ![1, 10000]⟩

abbrev nBuf : Space → Nat
  | .hbm => 107
  | .vmem => 0
  | .smem => 0
  | _ => 0

abbrev bufTy : (tb : Table) → Fin (tcTables nBuf tb) → BufTy
  | .hbm, ⟨0, _⟩ => ⟨S1x10000x10000x1, .f32⟩
  | .hbm, ⟨1, _⟩ => ⟨S3x1x1, .f32⟩
  | .hbm, ⟨2, _⟩ => ⟨S1, .f32⟩
  | .hbm, ⟨3, _⟩ => ⟨S3x1x1, .f32⟩
  | .hbm, ⟨4, _⟩ => ⟨S1, .f32⟩
  | .hbm, ⟨5, _⟩ => ⟨S1x1x10000x10000, .f32⟩
  | .hbm, ⟨6, _⟩ => ⟨S1x10000x10000, .f32⟩
  | .hbm, ⟨7, _⟩ => ⟨S10000x10000, .f32⟩
  | .hbm, ⟨8, _⟩ => ⟨S_, .f32⟩
  | .hbm, ⟨9, _⟩ => ⟨S10000, .f32⟩
  | .hbm, ⟨10, _⟩ => ⟨S_, .f32⟩
  | .hbm, ⟨11, _⟩ => ⟨S10000, .f32⟩
  | .hbm, ⟨12, _⟩ => ⟨S10000, .i1⟩
  | .hbm, ⟨13, _⟩ => ⟨S_, .f32⟩
  | .hbm, ⟨14, _⟩ => ⟨S10000, .f32⟩
  | .hbm, ⟨15, _⟩ => ⟨S10000, .f32⟩
  | .hbm, ⟨16, _⟩ => ⟨S10000, .f32⟩
  | .hbm, ⟨17, _⟩ => ⟨S_, .f32⟩
  | .hbm, ⟨18, _⟩ => ⟨S10000, .f32⟩
  | .hbm, ⟨19, _⟩ => ⟨S10000, .f32⟩
  | .hbm, ⟨20, _⟩ => ⟨S_, .f32⟩
  | .hbm, ⟨21, _⟩ => ⟨S_, .f32⟩
  | .hbm, ⟨22, _⟩ => ⟨S10000, .f32⟩
  | .hbm, ⟨23, _⟩ => ⟨S10000, .f32⟩
  | .hbm, ⟨24, _⟩ => ⟨S_, .f32⟩
  | .hbm, ⟨25, _⟩ => ⟨S1x10000x1, .f32⟩
  | .hbm, ⟨26, _⟩ => ⟨S10000x1, .f32⟩
  | .hbm, ⟨27, _⟩ => ⟨S10000x1, .f32⟩
  | .hbm, ⟨28, _⟩ => ⟨S10000x1, .f32⟩
  | .hbm, ⟨29, _⟩ => ⟨S10000x1, .f32⟩
  | .hbm, ⟨30, _⟩ => ⟨S10000x1, .f32⟩
  | .hbm, ⟨31, _⟩ => ⟨S10000x1, .f32⟩
  | .hbm, ⟨32, _⟩ => ⟨S10000x1, .f32⟩
  | .hbm, ⟨33, _⟩ => ⟨S10000x1, .f32⟩
  | .hbm, ⟨34, _⟩ => ⟨S10000x1, .f32⟩
  | .hbm, ⟨35, _⟩ => ⟨S10000x1, .f32⟩
  | .hbm, ⟨36, _⟩ => ⟨S10000x1, .f32⟩
  | .hbm, ⟨37, _⟩ => ⟨S10000x1, .f32⟩
  | .hbm, ⟨38, _⟩ => ⟨S10000x1, .f32⟩
  | .hbm, ⟨39, _⟩ => ⟨S_, .f32⟩
  | .hbm, ⟨40, _⟩ => ⟨S10000x1, .f32⟩
  | .hbm, ⟨41, _⟩ => ⟨S10000x1, .f32⟩
  | .hbm, ⟨42, _⟩ => ⟨S10000x1, .f32⟩
  | .hbm, ⟨43, _⟩ => ⟨S1x1x1, .f32⟩
  | .hbm, ⟨44, _⟩ => ⟨S1x1, .f32⟩
  | .hbm, ⟨45, _⟩ => ⟨S10000x1, .f32⟩
  | .hbm, ⟨46, _⟩ => ⟨S1x1x1, .f32⟩
  | .hbm, ⟨47, _⟩ => ⟨S1x1, .f32⟩
  | .hbm, ⟨48, _⟩ => ⟨S10000x1, .f32⟩
  | .hbm, ⟨49, _⟩ => ⟨S10000x1, .f32⟩
  | .hbm, ⟨50, _⟩ => ⟨S1x1x1, .f32⟩
  | .hbm, ⟨51, _⟩ => ⟨S1x1, .f32⟩
  | .hbm, ⟨52, _⟩ => ⟨S10000x1, .f32⟩
  | .hbm, ⟨53, _⟩ => ⟨S10000x1, .f32⟩
  | .hbm, ⟨54, _⟩ => ⟨S1x1, .f32⟩
  | .hbm, ⟨55, _⟩ => ⟨S10000x1, .f32⟩
  | .hbm, ⟨56, _⟩ => ⟨S10000x1, .f32⟩
  | .hbm, ⟨57, _⟩ => ⟨S1x10000x1, .f32⟩
  | .hbm, ⟨58, _⟩ => ⟨S10000x1, .f32⟩
  | .hbm, ⟨59, _⟩ => ⟨S10000x1, .f32⟩
  | .hbm, ⟨60, _⟩ => ⟨S10000x1, .f32⟩
  | .hbm, ⟨61, _⟩ => ⟨S10000x1, .f32⟩
  | .hbm, ⟨62, _⟩ => ⟨S10000x1, .f32⟩
  | .hbm, ⟨63, _⟩ => ⟨S10000x1, .f32⟩
  | .hbm, ⟨64, _⟩ => ⟨S10000x1, .f32⟩
  | .hbm, ⟨65, _⟩ => ⟨S10000x1, .f32⟩
  | .hbm, ⟨66, _⟩ => ⟨S10000x1, .f32⟩
  | .hbm, ⟨67, _⟩ => ⟨S10000x1, .f32⟩
  | .hbm, ⟨68, _⟩ => ⟨S10000x1, .f32⟩
  | .hbm, ⟨69, _⟩ => ⟨S10000x1, .f32⟩
  | .hbm, ⟨70, _⟩ => ⟨S10000x1, .f32⟩
  | .hbm, ⟨71, _⟩ => ⟨S_, .f32⟩
  | .hbm, ⟨72, _⟩ => ⟨S10000x1, .f32⟩
  | .hbm, ⟨73, _⟩ => ⟨S10000x1, .f32⟩
  | .hbm, ⟨74, _⟩ => ⟨S10000x1, .f32⟩
  | .hbm, ⟨75, _⟩ => ⟨S1x1x1, .f32⟩
  | .hbm, ⟨76, _⟩ => ⟨S1x1, .f32⟩
  | .hbm, ⟨77, _⟩ => ⟨S10000x1, .f32⟩
  | .hbm, ⟨78, _⟩ => ⟨S1x1x1, .f32⟩
  | .hbm, ⟨79, _⟩ => ⟨S1x1, .f32⟩
  | .hbm, ⟨80, _⟩ => ⟨S10000x1, .f32⟩
  | .hbm, ⟨81, _⟩ => ⟨S10000x1, .f32⟩
  | .hbm, ⟨82, _⟩ => ⟨S1x1x1, .f32⟩
  | .hbm, ⟨83, _⟩ => ⟨S1x1, .f32⟩
  | .hbm, ⟨84, _⟩ => ⟨S10000x1, .f32⟩
  | .hbm, ⟨85, _⟩ => ⟨S10000x1, .f32⟩
  | .hbm, ⟨86, _⟩ => ⟨S1x1, .f32⟩
  | .hbm, ⟨87, _⟩ => ⟨S10000x1, .f32⟩
  | .hbm, ⟨88, _⟩ => ⟨S10000x1, .f32⟩
  | .hbm, ⟨89, _⟩ => ⟨S1x10000x1, .f32⟩
  | .hbm, ⟨90, _⟩ => ⟨S_, .f32⟩
  | .hbm, ⟨91, _⟩ => ⟨S10000x1, .f32⟩
  | .hbm, ⟨92, _⟩ => ⟨S_, .f32⟩
  | .hbm, ⟨93, _⟩ => ⟨S10000x1, .f32⟩
  | .hbm, ⟨94, _⟩ => ⟨S10000x1, .f32⟩
  | .hbm, ⟨95, _⟩ => ⟨S_, .f32⟩
  | .hbm, ⟨96, _⟩ => ⟨S10000, .f32⟩
  | .hbm, ⟨97, _⟩ => ⟨S_, .f32⟩
  | .hbm, ⟨98, _⟩ => ⟨S10000, .f32⟩
  | .hbm, ⟨99, _⟩ => ⟨S10000, .f32⟩
  | .hbm, ⟨100, _⟩ => ⟨S_, .f32⟩
  | .hbm, ⟨101, _⟩ => ⟨S10000, .f32⟩
  | .hbm, ⟨102, _⟩ => ⟨S10000, .f32⟩
  | .hbm, ⟨103, _⟩ => ⟨S_, .f32⟩
  | .hbm, ⟨104, _⟩ => ⟨S10000, .f32⟩
  | .hbm, ⟨105, _⟩ => ⟨S10000, .f32⟩
  | .hbm, ⟨106, _⟩ => ⟨S1x10000, .f32⟩
  | _, _ => ⟨S1x10000x10000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_call0_v0 : Ref sig .tc := ⟨.hbm, 21, rfl⟩
abbrev main_call0_v1 : Ref sig .tc := ⟨.hbm, 22, rfl⟩
abbrev main_v11 : Ref sig .tc := ⟨.hbm, 23, rfl⟩
abbrev main_cst_4 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_6 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_cst_7 : Ref sig .tc := ⟨.hbm, 90, rfl⟩
abbrev main_v75 : Ref sig .tc := ⟨.hbm, 91, rfl⟩
abbrev main_cst_8 : Ref sig .tc := ⟨.hbm, 92, rfl⟩
abbrev main_v76 : Ref sig .tc := ⟨.hbm, 93, rfl⟩
abbrev main_v77 : Ref sig .tc := ⟨.hbm, 94, rfl⟩
abbrev main_cst_9 : Ref sig .tc := ⟨.hbm, 95, rfl⟩
abbrev main_v78 : Ref sig .tc := ⟨.hbm, 96, rfl⟩
abbrev main_cst_10 : Ref sig .tc := ⟨.hbm, 97, rfl⟩
abbrev main_v79 : Ref sig .tc := ⟨.hbm, 98, rfl⟩
abbrev main_v80 : Ref sig .tc := ⟨.hbm, 99, rfl⟩
abbrev main_call1_cst : Ref sig .tc := ⟨.hbm, 100, rfl⟩
abbrev main_call1_v0 : Ref sig .tc := ⟨.hbm, 101, rfl⟩
abbrev main_v81 : Ref sig .tc := ⟨.hbm, 102, rfl⟩
abbrev main_cst_11 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩

abbrev nD : Nat := 1
abbrev τ : Topo := Topo.v7x

variable {F : FTy → Type} [FloatOps F]

class Facts₀ : Prop where
  transposes_S1x10000x10000x1_S1x1x10000x10000_0_3_1_2 : S1x10000x10000x1.Transposes [0, 3, 1, 2] S1x1x10000x10000
  shapeCasts_S1x1x10000x10000_S1x10000x10000 : S1x1x10000x10000.ShapeCasts S1x10000x10000
  shapeCasts_S1x10000x10000_S10000x10000 : S1x10000x10000.ShapeCasts S10000x10000
  reducesTo_S10000x10000_S10000_d1 : S10000x10000.ReducesTo [1] S10000
  h_S_ : 0 < S_.numel
  bcast_S_S10000 : S_.BroadcastsInDim S10000 (![] : Fin 0 → Fin S10000.rank)
  bcast_S_S1x10000x1 : S_.BroadcastsInDim S1x10000x1 (![] : Fin 0 → Fin S1x10000x1.rank)
  shapeCasts_S1x10000x1_S10000x1 : S1x10000x1.ShapeCasts S10000x1
  bcast_S10000_S10000x1_0 : S10000.BroadcastsInDim S10000x1 (![0] : Fin 1 → Fin S10000x1.rank)
  bcast_S_S10000x1 : S_.BroadcastsInDim S10000x1 (![] : Fin 0 → Fin S10000x1.rank)
  slices_S3x1x1_S1x1x1_0_0_0 : S3x1x1.Slices ![0, 0, 0] S1x1x1
  shapeCasts_S1x1x1_S1x1 : S1x1x1.ShapeCasts S1x1
  slices_S3x1x1_S1x1x1_1_0_0 : S3x1x1.Slices ![1, 0, 0] S1x1x1
  slices_S3x1x1_S1x1x1_2_0_0 : S3x1x1.Slices ![2, 0, 0] S1x1x1
  bcast_S1_S1x1_1 : S1.BroadcastsInDim S1x1 (![1] : Fin 1 → Fin S1x1.rank)
  bcast_S1x1_S10000x1_0_1 : S1x1.BroadcastsInDim S10000x1 (![0, 1] : Fin 2 → Fin S10000x1.rank)
  bcast_S10000x1_S1x10000x1_1_2 : S10000x1.BroadcastsInDim S1x10000x1 (![1, 2] : Fin 2 → Fin S1x10000x1.rank)
  reducesTo_S1x10000x1_S10000x1_d0 : S1x10000x1.ReducesTo [0] S10000x1
  reducesTo_S10000x1_S10000_d1 : S10000x1.ReducesTo [1] S10000
  shapeCasts_S10000_S1x10000 : S10000.ShapeCasts S1x10000
  dot_S10000x10000_S10000x1_S10000x1_1_0_0_1_n_n_wf : DotDims.WF S10000x10000 S10000x1 S10000x1 [1] [0] [0] [1] [] []
  dot_S10000x1_S1x1_S10000x1_1_0_0_1_n_n_wf : DotDims.WF S10000x1 S1x1 S10000x1 [1] [0] [0] [1] [] []

variable [Facts₀]

def dot_S10000x10000_S10000x1_S10000x1_1_0_0_1_n_n : DotDims S10000x10000 S10000x1 S10000x1 where
  lhsContracting := [1]
  rhsContracting := [0]
  lhsNonContracting := [0]
  rhsNonContracting := [1]
  lhsBatch := []
  rhsBatch := []
  wf := dot_S10000x10000_S10000x1_S10000x1_1_0_0_1_n_n_wf
def dot_S10000x1_S1x1_S10000x1_1_0_0_1_n_n : DotDims S10000x1 S1x1 S10000x1 where
  lhsContracting := [1]
  rhsContracting := [0]
  lhsNonContracting := [0]
  rhsNonContracting := [1]
  lhsBatch := []
  rhsBatch := []
  wf := dot_S10000x1_S1x1_S10000x1_1_0_0_1_n_n_wf

class Facts : Prop extends Facts₀ where

variable [Facts]
-- ==== Proof.KernelRun.lean ====
/-
  The idealized kernel program run as a whole.  The program is thirteen stretches: host operations, then a
  matrix-vector launch, four times over, then the closing host operations.  The buffer contents at the
  boundaries between stretches are a fold from the launch memory (`Gen.W0` … `Gen.W13`): a host stretch
  applies its operations, a launch replaces its three arrays by what its grid leaves and keeps every other
  buffer.  Here the whole run is stated once in its strongest form — every weakly fair execution ends with
  EVERY unscoped buffer of every core at the last boundary's contents `Gen.W13` — from which both the
  unchanged arguments and the value of the result buffer follow by reading `Gen.W13` at one buffer.
-/
import proofs.«105162_g89678917141430_cont_sun_m_1004_19_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the statement's types are matched up to unfolding of definitions
set_option backward.isDefEq.respectTransparency.types false in
/-- Every weakly fair execution of the program terminates, nothing faulting, and in the final state every
    unscoped buffer `b` of every core `c` holds `Gen.W13 m ρ c b`: the last boundary of the fold through the
    thirteen stretches.  (The launch theorem over the stretches, the last thread state read against the final
    state, and no further weakening of what was read.) -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W13 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h => h)

end Cert.KernelIdeal.Whole

end
-- ==== Proof.ChebModel.lean ====
/-
  The network both programs compute, as ONE function of a matrix-vector product.

  A graph on 10000 nodes is given by a dense adjacency matrix `A`.  With `deg i = Σ_j A i j` and
  `s i = 1 / sqrt (max (deg i) ε)` where `deg i > 0`, `s i = 0` elsewhere, the rescaled Laplacian acts on a
  column of node features by `L v = -(s · (A (s · v)))`.  A Chebyshev layer of order three sends `h` to
  `h·W₀ + (L h)·W₁ + (2 L (L h) - h)·W₂ + b`; the network is two such layers from the all-ones column,
  followed by two means over axes of length one, a rectifier and an offset.

  Everything here is stated over an ABSTRACT product `mv : column → column` standing for `u ↦ A u`, a
  degree vector and a starting column.  The two programs differ only in how they compute those three;
  all the pointwise algebra around them is the same text on both sides and is never opened.
-/
import proofs.«105162_g89678917141430_cont_sun_m_1004_19_alg».proof.ReferenceIdeal

noncomputable section

namespace Cert.ChebModel

open Idealize.ShloMosaic Idealize.SL.Sem Cert.ReferenceIdeal

variable [Cert.ReferenceIdeal.Facts]
open Cert.ReferenceIdeal.Facts₀ Cert.ReferenceIdeal.Facts

variable {F : FTy → Type} [FloatOps F]

/-- The inverse square root of the degrees, `1 / sqrt (max deg ε)` where the degree is positive and `0`
    elsewhere. -/
def invSqrtDeg (deg : FVec F S10000 .f32) : FVec F S10000 .f32 :=
  select (cmpf .ogt deg (broadcastInDim S10000 ![] bcast_S_S10000 (constant S_ .f32 0x00000000#32)))
    (Host.divf (broadcastInDim S10000 ![] bcast_S_S10000 (constant S_ .f32 0x3F800000#32))
      (Host.sqrt (maximumf deg (broadcastInDim S10000 ![] bcast_S_S10000 (constant S_ .f32 0x2B8CBCCC#32)))))
    (broadcastInDim S10000 ![] bcast_S_S10000 (id (constant S_ .f32 0x00000000#32)))

/-- The rescaled Laplacian on a column: `-(s · mv (s · v))`. -/
def lap (mv : FVec F S10000x1 .f32 → FVec F S10000x1 .f32) (s : FVec F S10000 .f32) (v : FVec F S10000x1 .f32) :
    FVec F S10000x1 .f32 :=
  Host.negf (mulf (broadcastInDim S10000x1 ![0] bcast_S10000_S10000x1_0 s)
    (mv (mulf (broadcastInDim S10000x1 ![0] bcast_S10000_S10000x1_0 s) v)))

/-- The third Chebyshev term `2 · L h₁ - h₀`. -/
def third (mv : FVec F S10000x1 .f32 → FVec F S10000x1 .f32) (s : FVec F S10000 .f32) (h0 h1 : FVec F S10000x1 .f32) :
    FVec F S10000x1 .f32 :=
  subf (mulf (broadcastInDim S10000x1 ![] bcast_S_S10000x1 (constant S_ .f32 0x40000000#32)) (lap mv s h1)) h0

/-- The three terms against the three 1×1 weight slices, plus the bias. -/
def mix (h0 h1 h2 : FVec F S10000x1 .f32) (W : FVec F S3x1x1 .f32) (b : FVec F S1 .f32) : FVec F S10000x1 .f32 :=
  addf (addf (addf
      (Host.dotGeneral dot_S10000x1_S1x1_S10000x1_1_0_0_1_n_n none h0
        (shapeCast S1x1 (extractStridedSlice S1x1x1 ![0, 0, 0] W slices_S3x1x1_S1x1x1_0_0_0) shapeCasts_S1x1x1_S1x1))
      (Host.dotGeneral dot_S10000x1_S1x1_S10000x1_1_0_0_1_n_n none h1
        (shapeCast S1x1 (extractStridedSlice S1x1x1 ![1, 0, 0] W slices_S3x1x1_S1x1x1_1_0_0) shapeCasts_S1x1x1_S1x1)))
      (Host.dotGeneral dot_S10000x1_S1x1_S10000x1_1_0_0_1_n_n none h2
        (shapeCast S1x1 (extractStridedSlice S1x1x1 ![2, 0, 0] W slices_S3x1x1_S1x1x1_2_0_0) shapeCasts_S1x1x1_S1x1)))
    (broadcastInDim S10000x1 ![0, 1] bcast_S1x1_S10000x1_0_1 (broadcastInDim S1x1 ![1] bcast_S1_S1x1_1 b))

/-- One Chebyshev layer of order three. -/
def layer (mv : FVec F S10000x1 .f32 → FVec F S10000x1 .f32) (s : FVec F S10000 .f32) (h : FVec F S10000x1 .f32)
    (W : FVec F S3x1x1 .f32) (b : FVec F S1 .f32) : FVec F S10000x1 .f32 :=
  mix h (lap mv s h) (third mv s h (lap mv s h)) W b

/-- The read-out: the mean over a leading axis of length one, the mean over the trailing axis of length one, the
    rectifier, the offset, and the row layout. -/
def readout (y : FVec F S10000x1 .f32) : FVec F S1x10000 .f32 :=
  shapeCast S1x10000
    (addf
      (maximumf
        (Host.divf
          (Host.reduceAdd
            (Host.divf
              (Host.reduceAdd (broadcastInDim S1x10000x1 ![1, 2] bcast_S10000x1_S1x10000x1_1_2 y)
                (constant S_ .f32 0x00000000#32) reducesTo_S1x10000x1_S10000x1_d0 h_S_)
              (broadcastInDim S10000x1 ![] bcast_S_S10000x1 (constant S_ .f32 0x3F800000#32)))
            (constant S_ .f32 0x00000000#32) reducesTo_S10000x1_S10000_d1 h_S_)
          (broadcastInDim S10000 ![] bcast_S_S10000 (constant S_ .f32 0x3F800000#32)))
        (broadcastInDim S10000 ![] bcast_S_S10000 (constant S_ .f32 0x00000000#32)))
      (broadcastInDim S10000 ![] bcast_S_S10000 (constant S_ .f32 0x3A83126F#32)))
    shapeCasts_S10000_S1x10000

/-- The whole network from a product, a degree vector and a starting column. -/
def network (mv : FVec F S10000x1 .f32 → FVec F S10000x1 .f32) (deg : FVec F S10000 .f32) (h : FVec F S10000x1 .f32)
    (W0 : FVec F S3x1x1 .f32) (b0 : FVec F S1 .f32) (W1 : FVec F S3x1x1 .f32) (b1 : FVec F S1 .f32) : FVec F S1x10000 .f32 :=
  readout (layer mv (invSqrtDeg deg) (layer mv (invSqrtDeg deg) h W0 b0) W1 b1)

end Cert.ChebModel

end
-- ==== Proof.BlockMv.lean ====
/-
  One launch of the kernel multiplies the matrix by a row vector, 400 rows at a time.

  The matrix is held as 25 blocks of 400 rows of 10000 entries, the vector as one row of 10000 entries, and the
  result as 25 blocks of one row of 400 entries: entry `r` of block `b` is the dot product of row `r` of matrix
  block `b` with the vector.  `blockMv` is that function on whole arrays.  The body of the kernel, at one grid
  point, forms the products of its 400×10000 block with the vector repeated down the rows and sums each row:
  read at an entry this is the same dot product (`body_apply`), the changes of float format on the way being the
  identity on extended reals.
-/
import proofs.«105162_g89678917141430_cont_sun_m_1004_19_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.BlockMv

open Cert.KernelIdeal Cert.KernelIdeal.Gen
open Idealize.ShloMosaic Idealize.ShloMosaic.TcCoe Idealize.SL.Sem Idealize.ShloMosaic.ValueIdx

/-- The blocked matrix-vector product: entry `(b, ·, r)` of the result is the dot product of row `r` of block `b`
    with the vector. -/
def blockMv (q : FVec Ideal S25x400x10000 .bf16) (u : FVec Ideal S1x10000 .bf16) : FVec Ideal S25x1x400 .f32 :=
  fun i => ∑ j : Fin 10000,
    q (ix3 (⟨(i 0).val, (i 0).isLt⟩ : Fin 25) (⟨(i 2).val, (i 2).isLt⟩ : Fin 400) j) * u (ix2 (0 : Fin 1) j)

/-- `blockMv` at an entry whose block and row are known by value. -/
theorem blockMv_apply (q : FVec Ideal S25x400x10000 .bf16) (u : FVec Ideal S1x10000 .bf16) (i : S25x1x400.Idx)
    (b : Fin 25) (r : Fin 400) (hb : (i 0).val = b.val) (hr : (i 2).val = r.val) :
    blockMv q u i = ∑ j : Fin 10000, q (ix3 b r j) * u (ix2 (0 : Fin 1) j) := by
  unfold blockMv
  have eb : (⟨(i 0).val, (i 0).isLt⟩ : Fin 25) = b := Fin.ext hb
  have er : (⟨(i 2).val, (i 2).isLt⟩ : Fin 400) = r := Fin.ext hr
  rw [eb, er]

/-- A row index with the summed column put back is the pair (row, column). -/
theorem lift_row (h : S400x10000.Reduces [1] S400) (r : Fin 400) (k : Fin (S400x10000.size 1)) :
    h.lift (ix1 r) k = ix2 r (⟨k.val, k.isLt⟩ : Fin 10000) := by
  funext c; apply Fin.ext
  fin_cases c <;> rfl

/-- The body's arithmetic on one block, read at an entry: the dot product of the block's row with the vector. -/
theorem body_apply (x0 : Vec Ideal S1x400x10000 .bf16) (x1 : Vec Ideal S1x10000 .bf16) (z0 z1 : Fin 1) (r : Fin 400) :
    k0_pay1 (F := Ideal) x0 x1 (ix3 z0 z1 r) = ∑ j : Fin 10000, x0 (ix3 (0 : Fin 1) r j) * x1 (ix2 (0 : Fin 1) j) := by
  unfold k0_pay1
  refine (shapeCast_apply _ shapeCasts_S400_S1x1x400 (ix3 z0 z1 r) (ix1 r) ?_).trans ?_
  · rw [Shape.rowMajor_val_one, Shape.rowMajor_val_three]
    have h0 := z0.isLt
    have h1 := z1.isLt
    show r.val = (z0.val * 1 + z1.val) * 400 + r.val
    omega
  refine (Ideal.multiReduction_add_single _ _ reduces_S400x10000_S400 _ _ (ix1 r)).trans ?_
  refine Finset.sum_congr rfl fun j _ => ?_
  rw [lift_row]
  refine congrArg₂ (· * ·) ?_ ?_
  · exact shapeCast_1ab_ab_apply x0 shapeCasts_S1x400x10000_S400x10000 r _
  · refine (broadcastTo_1b_ab_apply _ broadcasts_S1x10000_S400x10000 r _).trans ?_
    refine (shapeCast_a_1a_apply _ shapeCasts_S10000_S1x10000 0 _).trans ?_
    exact shapeCast_1a_a_apply x1 shapeCasts_S1x10000_S10000 _

/-- The four launches run the same body. -/
theorem body1_eq : k1_pay1 (F := Ideal) = k0_pay1 (F := Ideal) := rfl
theorem body2_eq : k2_pay1 (F := Ideal) = k0_pay1 (F := Ideal) := rfl
theorem body3_eq : k3_pay1 (F := Ideal) = k0_pay1 (F := Ideal) := rfl

end Cert.KernelIdeal.BlockMv

end
-- ==== Proof.Mv0.lean ====
/-
  Launch 0 as a whole: the result array it leaves is the blocked matrix-vector product of the two arrays it
  reads, whatever the buffers hold when the launch is entered.

  Grid point `t` reads block `t` of the matrix (rows `400 t … 400 t + 399`) and the whole vector, and writes back
  block `t` of the result; the 25 blocks tile the result array, so after the last point the array is `blockMv` of
  the matrix and the vector.
-/
import proofs.«105162_g89678917141430_cont_sun_m_1004_19_alg».proof.Proof.Gen.KernelIdeal.Frame
import proofs.«105162_g89678917141430_cont_sun_m_1004_19_alg».proof.Proof.BlockMv

set_option maxRecDepth 16384

noncomputable section

namespace Cert.KernelIdeal.Mv0

open Cert.KernelIdeal Cert.KernelIdeal.Gen Cert.KernelIdeal.BlockMv
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- The block indices over the grid: point `t` takes matrix block `t`, the one vector block, and result block `t`. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- The matrix window's block at point `t`, read at an entry, is the matrix at row block `t`. -/
theorem matrix_block (c : Dev nD) (t : Fin cfg0.N) (y : S1x400x10000.Idx) (k : S25x400x10000.Idx)
    (h0 : (k 0).val = t.val) (h1 : (k 1).val = (y 1).val) (h2 : (k 2).val = (y 2).val) :
    (iblk0 V c 0 t : Vec Ideal S1x400x10000 .bf16) y = (V c main_v1 : S25x400x10000.Idx → Ideal .bf16) k := by
  obtain ⟨e0, e1, e2, -⟩ := idx_facts t
  unfold iblk0
  rw [View.read_apply]
  show V c main_v1 _ = V c main_v1 _
  refine congrArg (V c main_v1) (funext fun a => Fin.ext ?_)
  have hy0 : (y 0).val < 1 := (y 0).isLt
  match a with
  | ⟨0, _⟩ => show win0_0.index t (0 : Fin 3) * 1 + 1 * (y 0).val = (k 0).val; rw [e0, h0]; omega
  | ⟨1, _⟩ => show win0_0.index t (1 : Fin 3) * 400 + 1 * (y 1).val = (k 1).val; rw [e1, h1]; omega
  | ⟨2, _⟩ => show win0_0.index t (2 : Fin 3) * 10000 + 1 * (y 2).val = (k 2).val; rw [e2, h2]; omega

/-- The vector window's one block is the whole vector. -/
theorem vector_block (c : Dev nD) (t : Fin cfg0.N) (y : S1x10000.Idx) :
    (iblk0 V c 1 t : Vec Ideal S1x10000 .bf16) y = (V c main_v15 : S1x10000.Idx → Ideal .bf16) y := by
  obtain ⟨-, -, -, e3, e4, -⟩ := idx_facts t
  unfold iblk0
  rw [View.read_apply]
  show V c main_v15 _ = V c main_v15 _
  refine congrArg (V c main_v15) (funext fun a => Fin.ext ?_)
  match a with
  | ⟨0, _⟩ => show win0_1.index t (0 : Fin 2) * 1 + 1 * (y 0).val = (y 0).val; rw [e3]; omega
  | ⟨1, _⟩ => show win0_1.index t (1 : Fin 2) * 10000 + 1 * (y 1).val = (y 1).val; rw [e4]; omega

/-- What point `t` writes back is block `t` of the blocked product of the matrix and the vector as the launch finds
    them. -/
theorem flushed_eq (c : Dev nD) (t : Fin cfg0.N) :
    (dat0 V c).flushed 2 t = ((cfg0.win 2).blk t).view.read (Elt Ideal) (blockMv (V c main_v1) (V c main_v15)) := by
  show (cfg0.win 2).cut (grid0.coords t) ((dat0 V c).after 2 t) = _
  rw [after0_2]
  unfold out0_2
  rw [View.canon_unit_zero hz3]
  simp only [View.ld_unit_zero (S := S1x400x10000) hz3, View.ld_unit_zero (S := S1x10000) hz2]
  funext y
  obtain ⟨z0, z1, r, rfl⟩ : ∃ (z0 : Fin 1) (z1 : Fin 1) (r : Fin 400), y = ix3 z0 z1 r := ⟨y 0, y 1, y 2, eq_ix3 y⟩
  obtain ⟨-, -, -, -, -, e5, e6, e7⟩ := idx_facts t
  have ht : t.val < 25 := Nat.lt_of_lt_of_eq t.isLt (show cfg0.N = 25 from N_0)
  rw [View.read_apply]
  refine Eq.trans ?_ (blockMv_apply (V c main_v1) (V c main_v15) _ ⟨t.val, ht⟩ r ?_ ?_).symm
  · refine (body_apply (iblk0 V c 0 t) (iblk0 V c 1 t) z0 z1 r).trans ?_
    refine Finset.sum_congr rfl fun j _ => ?_
    rw [matrix_block V c t (ix3 (0 : Fin 1) r j) (ix3 (⟨t.val, ht⟩ : Fin 25) r j) rfl rfl rfl,
      vector_block V c t (ix2 (0 : Fin 1) j)]
  · show win0_2.index t (0 : Fin 3) * 1 + 1 * z0.val = t.val
    have := z0.isLt
    rw [e5]; omega
  · show win0_2.index t (2 : Fin 3) * 400 + 1 * r.val = r.val
    rw [e7]; omega

/-- An entry of the result array lies in point `t`'s block iff each coordinate is in the block's range. -/
theorem mem_blk (t : Fin cfg0.N) (i : S25x1x400.Idx) :
    i ∈ ((cfg0.win 2).blk t).view.set ↔ ∀ a : Fin 3, win0_2.index t a * S1x1x400.size a ≤ (i a).val ∧ (i a).val < win0_2.index t a * S1x1x400.size a + S1x1x400.size a := by
  show i ∈ ((View.whole main_v16).slice (win0_2.rect t)).set ↔ _
  rw [View.set_slice_whole, Rect.mem_set_unit]
  exact Iff.rfl

/-- The 25 blocks tile the result array: entry `(b, ·, r)` is in point `b`'s block. -/
theorem cover (i : S25x1x400.Idx) :
    ∃ t : Fin cfg0.N, (cfg0.win 2).flush t = true ∧ i ∈ ((cfg0.win 2).blk t).view.set := by
  have hi0 : (i 0).val < 25 := (i 0).isLt
  have hi1 : (i 1).val < 1 := (i 1).isLt
  have hi2 : (i 2).val < 400 := (i 2).isLt
  obtain ⟨t0, ht0⟩ : ∃ t0 : Fin cfg0.N, t0.val = (i 0).val :=
    ⟨⟨(i 0).val, Nat.lt_of_lt_of_eq hi0 (show cfg0.N = 25 from N_0).symm⟩, rfl⟩
  refine ⟨t0, flush0_2 t0, ?_⟩
  rw [mem_blk]
  obtain ⟨-, -, -, -, -, e5, e6, e7⟩ := idx_facts t0
  intro a
  match a with
  | ⟨0, _⟩ => show win0_2.index t0 (0 : Fin 3) * 1 ≤ (i 0).val ∧ (i 0).val < win0_2.index t0 (0 : Fin 3) * 1 + 1; rw [e5]; omega
  | ⟨1, _⟩ => show win0_2.index t0 (1 : Fin 3) * 1 ≤ (i 1).val ∧ (i 1).val < win0_2.index t0 (1 : Fin 3) * 1 + 1; rw [e6]; omega
  | ⟨2, _⟩ => show win0_2.index t0 (2 : Fin 3) * 400 ≤ (i 2).val ∧ (i 2).val < win0_2.index t0 (2 : Fin 3) * 400 + 400; rw [e7]; omega

/-- The result array after the launch is the blocked product of the matrix and the vector the launch was entered
    with. -/
theorem result (c : Dev nD) : (dat0 V c).arrAt 2 cfg0.N = blockMv (V c main_v1) (V c main_v15) :=
  (dat0 V c).arrAt_eq_of_cover 2 (blockMv (V c main_v1) (V c main_v15)) (fun t _ => flushed_eq V c t) (cover)

end Cert.KernelIdeal.Mv0

end
-- ==== Proof.Mv1.lean ====
/-
  Launch 1 as a whole: the result array it leaves is the blocked matrix-vector product of the two arrays it
  reads, whatever the buffers hold when the launch is entered.

  Grid point `t` reads block `t` of the matrix (rows `400 t … 400 t + 399`) and the whole vector, and writes back
  block `t` of the result; the 25 blocks tile the result array, so after the last point the array is `blockMv` of
  the matrix and the vector.
-/
import proofs.«105162_g89678917141430_cont_sun_m_1004_19_alg».proof.Proof.Gen.KernelIdeal.Frame
import proofs.«105162_g89678917141430_cont_sun_m_1004_19_alg».proof.Proof.BlockMv

set_option maxRecDepth 16384

noncomputable section

namespace Cert.KernelIdeal.Mv1

open Cert.KernelIdeal Cert.KernelIdeal.Gen Cert.KernelIdeal.BlockMv
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- The block indices over the grid: point `t` takes matrix block `t`, the one vector block, and result block `t`. -/
theorem idx_facts : ∀ t : Fin cfg1.N,
    win1_0.index t (0 : Fin 3) = t.val ∧ win1_0.index t (1 : Fin 3) = 0 ∧ win1_0.index t (2 : Fin 3) = 0
    ∧ win1_1.index t (0 : Fin 2) = 0 ∧ win1_1.index t (1 : Fin 2) = 0
    ∧ win1_2.index t (0 : Fin 3) = t.val ∧ win1_2.index t (1 : Fin 3) = 0 ∧ win1_2.index t (2 : Fin 3) = 0 :=
  (by decide +kernel : ∀ t : Fin grid1.N, _)

/-- The matrix window's block at point `t`, read at an entry, is the matrix at row block `t`. -/
theorem matrix_block (c : Dev nD) (t : Fin cfg1.N) (y : S1x400x10000.Idx) (k : S25x400x10000.Idx)
    (h0 : (k 0).val = t.val) (h1 : (k 1).val = (y 1).val) (h2 : (k 2).val = (y 2).val) :
    (iblk1 V c 0 t : Vec Ideal S1x400x10000 .bf16) y = (V c main_v1 : S25x400x10000.Idx → Ideal .bf16) k := by
  obtain ⟨e0, e1, e2, -⟩ := idx_facts t
  unfold iblk1
  rw [View.read_apply]
  show V c main_v1 _ = V c main_v1 _
  refine congrArg (V c main_v1) (funext fun a => Fin.ext ?_)
  have hy0 : (y 0).val < 1 := (y 0).isLt
  match a with
  | ⟨0, _⟩ => show win1_0.index t (0 : Fin 3) * 1 + 1 * (y 0).val = (k 0).val; rw [e0, h0]; omega
  | ⟨1, _⟩ => show win1_0.index t (1 : Fin 3) * 400 + 1 * (y 1).val = (k 1).val; rw [e1, h1]; omega
  | ⟨2, _⟩ => show win1_0.index t (2 : Fin 3) * 10000 + 1 * (y 2).val = (k 2).val; rw [e2, h2]; omega

/-- The vector window's one block is the whole vector. -/
theorem vector_block (c : Dev nD) (t : Fin cfg1.N) (y : S1x10000.Idx) :
    (iblk1 V c 1 t : Vec Ideal S1x10000 .bf16) y = (V c main_v24 : S1x10000.Idx → Ideal .bf16) y := by
  obtain ⟨-, -, -, e3, e4, -⟩ := idx_facts t
  unfold iblk1
  rw [View.read_apply]
  show V c main_v24 _ = V c main_v24 _
  refine congrArg (V c main_v24) (funext fun a => Fin.ext ?_)
  match a with
  | ⟨0, _⟩ => show win1_1.index t (0 : Fin 2) * 1 + 1 * (y 0).val = (y 0).val; rw [e3]; omega
  | ⟨1, _⟩ => show win1_1.index t (1 : Fin 2) * 10000 + 1 * (y 1).val = (y 1).val; rw [e4]; omega

/-- What point `t` writes back is block `t` of the blocked product of the matrix and the vector as the launch finds
    them. -/
theorem flushed_eq (c : Dev nD) (t : Fin cfg1.N) :
    (dat1 V c).flushed 2 t = ((cfg1.win 2).blk t).view.read (Elt Ideal) (blockMv (V c main_v1) (V c main_v24)) := by
  show (cfg1.win 2).cut (grid1.coords t) ((dat1 V c).after 2 t) = _
  rw [after1_2]
  unfold out1_2
  rw [View.canon_unit_zero hz3]
  simp only [View.ld_unit_zero (S := S1x400x10000) hz3, View.ld_unit_zero (S := S1x10000) hz2]
  funext y
  obtain ⟨z0, z1, r, rfl⟩ : ∃ (z0 : Fin 1) (z1 : Fin 1) (r : Fin 400), y = ix3 z0 z1 r := ⟨y 0, y 1, y 2, eq_ix3 y⟩
  obtain ⟨-, -, -, -, -, e5, e6, e7⟩ := idx_facts t
  have ht : t.val < 25 := Nat.lt_of_lt_of_eq t.isLt (show cfg1.N = 25 from N_1)
  rw [View.read_apply]
  refine Eq.trans ?_ (blockMv_apply (V c main_v1) (V c main_v24) _ ⟨t.val, ht⟩ r ?_ ?_).symm
  · refine ((congrFun (congrFun (congrFun body1_eq _) _) _).trans (body_apply (iblk1 V c 0 t) (iblk1 V c 1 t) z0 z1 r)).trans ?_
    refine Finset.sum_congr rfl fun j _ => ?_
    rw [matrix_block V c t (ix3 (0 : Fin 1) r j) (ix3 (⟨t.val, ht⟩ : Fin 25) r j) rfl rfl rfl,
      vector_block V c t (ix2 (0 : Fin 1) j)]
  · show win1_2.index t (0 : Fin 3) * 1 + 1 * z0.val = t.val
    have := z0.isLt
    rw [e5]; omega
  · show win1_2.index t (2 : Fin 3) * 400 + 1 * r.val = r.val
    rw [e7]; omega

/-- An entry of the result array lies in point `t`'s block iff each coordinate is in the block's range. -/
theorem mem_blk (t : Fin cfg1.N) (i : S25x1x400.Idx) :
    i ∈ ((cfg1.win 2).blk t).view.set ↔ ∀ a : Fin 3, win1_2.index t a * S1x1x400.size a ≤ (i a).val ∧ (i a).val < win1_2.index t a * S1x1x400.size a + S1x1x400.size a := by
  show i ∈ ((View.whole main_v25).slice (win1_2.rect t)).set ↔ _
  rw [View.set_slice_whole, Rect.mem_set_unit]
  exact Iff.rfl

/-- The 25 blocks tile the result array: entry `(b, ·, r)` is in point `b`'s block. -/
theorem cover (i : S25x1x400.Idx) :
    ∃ t : Fin cfg1.N, (cfg1.win 2).flush t = true ∧ i ∈ ((cfg1.win 2).blk t).view.set := by
  have hi0 : (i 0).val < 25 := (i 0).isLt
  have hi1 : (i 1).val < 1 := (i 1).isLt
  have hi2 : (i 2).val < 400 := (i 2).isLt
  obtain ⟨t0, ht0⟩ : ∃ t0 : Fin cfg1.N, t0.val = (i 0).val :=
    ⟨⟨(i 0).val, Nat.lt_of_lt_of_eq hi0 (show cfg1.N = 25 from N_1).symm⟩, rfl⟩
  refine ⟨t0, flush1_2 t0, ?_⟩
  rw [mem_blk]
  obtain ⟨-, -, -, -, -, e5, e6, e7⟩ := idx_facts t0
  intro a
  match a with
  | ⟨0, _⟩ => show win1_2.index t0 (0 : Fin 3) * 1 ≤ (i 0).val ∧ (i 0).val < win1_2.index t0 (0 : Fin 3) * 1 + 1; rw [e5]; omega
  | ⟨1, _⟩ => show win1_2.index t0 (1 : Fin 3) * 1 ≤ (i 1).val ∧ (i 1).val < win1_2.index t0 (1 : Fin 3) * 1 + 1; rw [e6]; omega
  | ⟨2, _⟩ => show win1_2.index t0 (2 : Fin 3) * 400 ≤ (i 2).val ∧ (i 2).val < win1_2.index t0 (2 : Fin 3) * 400 + 400; rw [e7]; omega

/-- The result array after the launch is the blocked product of the matrix and the vector the launch was entered
    with. -/
theorem result (c : Dev nD) : (dat1 V c).arrAt 2 cfg1.N = blockMv (V c main_v1) (V c main_v24) :=
  (dat1 V c).arrAt_eq_of_cover 2 (blockMv (V c main_v1) (V c main_v24)) (fun t _ => flushed_eq V c t) (cover)

end Cert.KernelIdeal.Mv1

end
-- ==== Proof.Mv2.lean ====
/-
  Launch 2 as a whole: the result array it leaves is the blocked matrix-vector product of the two arrays it
  reads, whatever the buffers hold when the launch is entered.

  Grid point `t` reads block `t` of the matrix (rows `400 t … 400 t + 399`) and the whole vector, and writes back
  block `t` of the result; the 25 blocks tile the result array, so after the last point the array is `blockMv` of
  the matrix and the vector.
-/
import proofs.«105162_g89678917141430_cont_sun_m_1004_19_alg».proof.Proof.Gen.KernelIdeal.Frame
import proofs.«105162_g89678917141430_cont_sun_m_1004_19_alg».proof.Proof.BlockMv

set_option maxRecDepth 16384

noncomputable section

namespace Cert.KernelIdeal.Mv2

open Cert.KernelIdeal Cert.KernelIdeal.Gen Cert.KernelIdeal.BlockMv
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- The block indices over the grid: point `t` takes matrix block `t`, the one vector block, and result block `t`. -/
theorem idx_facts : ∀ t : Fin cfg2.N,
    win2_0.index t (0 : Fin 3) = t.val ∧ win2_0.index t (1 : Fin 3) = 0 ∧ win2_0.index t (2 : Fin 3) = 0
    ∧ win2_1.index t (0 : Fin 2) = 0 ∧ win2_1.index t (1 : Fin 2) = 0
    ∧ win2_2.index t (0 : Fin 3) = t.val ∧ win2_2.index t (1 : Fin 3) = 0 ∧ win2_2.index t (2 : Fin 3) = 0 :=
  (by decide +kernel : ∀ t : Fin grid2.N, _)

/-- The matrix window's block at point `t`, read at an entry, is the matrix at row block `t`. -/
theorem matrix_block (c : Dev nD) (t : Fin cfg2.N) (y : S1x400x10000.Idx) (k : S25x400x10000.Idx)
    (h0 : (k 0).val = t.val) (h1 : (k 1).val = (y 1).val) (h2 : (k 2).val = (y 2).val) :
    (iblk2 V c 0 t : Vec Ideal S1x400x10000 .bf16) y = (V c main_v1 : S25x400x10000.Idx → Ideal .bf16) k := by
  obtain ⟨e0, e1, e2, -⟩ := idx_facts t
  unfold iblk2
  rw [View.read_apply]
  show V c main_v1 _ = V c main_v1 _
  refine congrArg (V c main_v1) (funext fun a => Fin.ext ?_)
  have hy0 : (y 0).val < 1 := (y 0).isLt
  match a with
  | ⟨0, _⟩ => show win2_0.index t (0 : Fin 3) * 1 + 1 * (y 0).val = (k 0).val; rw [e0, h0]; omega
  | ⟨1, _⟩ => show win2_0.index t (1 : Fin 3) * 400 + 1 * (y 1).val = (k 1).val; rw [e1, h1]; omega
  | ⟨2, _⟩ => show win2_0.index t (2 : Fin 3) * 10000 + 1 * (y 2).val = (k 2).val; rw [e2, h2]; omega

/-- The vector window's one block is the whole vector. -/
theorem vector_block (c : Dev nD) (t : Fin cfg2.N) (y : S1x10000.Idx) :
    (iblk2 V c 1 t : Vec Ideal S1x10000 .bf16) y = (V c main_v50 : S1x10000.Idx → Ideal .bf16) y := by
  obtain ⟨-, -, -, e3, e4, -⟩ := idx_facts t
  unfold iblk2
  rw [View.read_apply]
  show V c main_v50 _ = V c main_v50 _
  refine congrArg (V c main_v50) (funext fun a => Fin.ext ?_)
  match a with
  | ⟨0, _⟩ => show win2_1.index t (0 : Fin 2) * 1 + 1 * (y 0).val = (y 0).val; rw [e3]; omega
  | ⟨1, _⟩ => show win2_1.index t (1 : Fin 2) * 10000 + 1 * (y 1).val = (y 1).val; rw [e4]; omega

/-- What point `t` writes back is block `t` of the blocked product of the matrix and the vector as the launch finds
    them. -/
theorem flushed_eq (c : Dev nD) (t : Fin cfg2.N) :
    (dat2 V c).flushed 2 t = ((cfg2.win 2).blk t).view.read (Elt Ideal) (blockMv (V c main_v1) (V c main_v50)) := by
  show (cfg2.win 2).cut (grid2.coords t) ((dat2 V c).after 2 t) = _
  rw [after2_2]
  unfold out2_2
  rw [View.canon_unit_zero hz3]
  simp only [View.ld_unit_zero (S := S1x400x10000) hz3, View.ld_unit_zero (S := S1x10000) hz2]
  funext y
  obtain ⟨z0, z1, r, rfl⟩ : ∃ (z0 : Fin 1) (z1 : Fin 1) (r : Fin 400), y = ix3 z0 z1 r := ⟨y 0, y 1, y 2, eq_ix3 y⟩
  obtain ⟨-, -, -, -, -, e5, e6, e7⟩ := idx_facts t
  have ht : t.val < 25 := Nat.lt_of_lt_of_eq t.isLt (show cfg2.N = 25 from N_2)
  rw [View.read_apply]
  refine Eq.trans ?_ (blockMv_apply (V c main_v1) (V c main_v50) _ ⟨t.val, ht⟩ r ?_ ?_).symm
  · refine ((congrFun (congrFun (congrFun body2_eq _) _) _).trans (body_apply (iblk2 V c 0 t) (iblk2 V c 1 t) z0 z1 r)).trans ?_
    refine Finset.sum_congr rfl fun j _ => ?_
    rw [matrix_block V c t (ix3 (0 : Fin 1) r j) (ix3 (⟨t.val, ht⟩ : Fin 25) r j) rfl rfl rfl,
      vector_block V c t (ix2 (0 : Fin 1) j)]
  · show win2_2.index t (0 : Fin 3) * 1 + 1 * z0.val = t.val
    have := z0.isLt
    rw [e5]; omega
  · show win2_2.index t (2 : Fin 3) * 400 + 1 * r.val = r.val
    rw [e7]; omega

/-- An entry of the result array lies in point `t`'s block iff each coordinate is in the block's range. -/
theorem mem_blk (t : Fin cfg2.N) (i : S25x1x400.Idx) :
    i ∈ ((cfg2.win 2).blk t).view.set ↔ ∀ a : Fin 3, win2_2.index t a * S1x1x400.size a ≤ (i a).val ∧ (i a).val < win2_2.index t a * S1x1x400.size a + S1x1x400.size a := by
  show i ∈ ((View.whole main_v51).slice (win2_2.rect t)).set ↔ _
  rw [View.set_slice_whole, Rect.mem_set_unit]
  exact Iff.rfl

/-- The 25 blocks tile the result array: entry `(b, ·, r)` is in point `b`'s block. -/
theorem cover (i : S25x1x400.Idx) :
    ∃ t : Fin cfg2.N, (cfg2.win 2).flush t = true ∧ i ∈ ((cfg2.win 2).blk t).view.set := by
  have hi0 : (i 0).val < 25 := (i 0).isLt
  have hi1 : (i 1).val < 1 := (i 1).isLt
  have hi2 : (i 2).val < 400 := (i 2).isLt
  obtain ⟨t0, ht0⟩ : ∃ t0 : Fin cfg2.N, t0.val = (i 0).val :=
    ⟨⟨(i 0).val, Nat.lt_of_lt_of_eq hi0 (show cfg2.N = 25 from N_2).symm⟩, rfl⟩
  refine ⟨t0, flush2_2 t0, ?_⟩
  rw [mem_blk]
  obtain ⟨-, -, -, -, -, e5, e6, e7⟩ := idx_facts t0
  intro a
  match a with
  | ⟨0, _⟩ => show win2_2.index t0 (0 : Fin 3) * 1 ≤ (i 0).val ∧ (i 0).val < win2_2.index t0 (0 : Fin 3) * 1 + 1; rw [e5]; omega
  | ⟨1, _⟩ => show win2_2.index t0 (1 : Fin 3) * 1 ≤ (i 1).val ∧ (i 1).val < win2_2.index t0 (1 : Fin 3) * 1 + 1; rw [e6]; omega
  | ⟨2, _⟩ => show win2_2.index t0 (2 : Fin 3) * 400 ≤ (i 2).val ∧ (i 2).val < win2_2.index t0 (2 : Fin 3) * 400 + 400; rw [e7]; omega

/-- The result array after the launch is the blocked product of the matrix and the vector the launch was entered
    with. -/
theorem result (c : Dev nD) : (dat2 V c).arrAt 2 cfg2.N = blockMv (V c main_v1) (V c main_v50) :=
  (dat2 V c).arrAt_eq_of_cover 2 (blockMv (V c main_v1) (V c main_v50)) (fun t _ => flushed_eq V c t) (cover)

end Cert.KernelIdeal.Mv2

end
-- ==== Proof.Mv3.lean ====
/-
  Launch 3 as a whole: the result array it leaves is the blocked matrix-vector product of the two arrays it
  reads, whatever the buffers hold when the launch is entered.

  Grid point `t` reads block `t` of the matrix (rows `400 t … 400 t + 399`) and the whole vector, and writes back
  block `t` of the result; the 25 blocks tile the result array, so after the last point the array is `blockMv` of
  the matrix and the vector.
-/
import proofs.«105162_g89678917141430_cont_sun_m_1004_19_alg».proof.Proof.Gen.KernelIdeal.Frame
import proofs.«105162_g89678917141430_cont_sun_m_1004_19_alg».proof.Proof.BlockMv

set_option maxRecDepth 16384

noncomputable section

namespace Cert.KernelIdeal.Mv3

open Cert.KernelIdeal Cert.KernelIdeal.Gen Cert.KernelIdeal.BlockMv
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- The block indices over the grid: point `t` takes matrix block `t`, the one vector block, and result block `t`. -/
theorem idx_facts : ∀ t : Fin cfg3.N,
    win3_0.index t (0 : Fin 3) = t.val ∧ win3_0.index t (1 : Fin 3) = 0 ∧ win3_0.index t (2 : Fin 3) = 0
    ∧ win3_1.index t (0 : Fin 2) = 0 ∧ win3_1.index t (1 : Fin 2) = 0
    ∧ win3_2.index t (0 : Fin 3) = t.val ∧ win3_2.index t (1 : Fin 3) = 0 ∧ win3_2.index t (2 : Fin 3) = 0 :=
  (by decide +kernel : ∀ t : Fin grid3.N, _)

/-- The matrix window's block at point `t`, read at an entry, is the matrix at row block `t`. -/
theorem matrix_block (c : Dev nD) (t : Fin cfg3.N) (y : S1x400x10000.Idx) (k : S25x400x10000.Idx)
    (h0 : (k 0).val = t.val) (h1 : (k 1).val = (y 1).val) (h2 : (k 2).val = (y 2).val) :
    (iblk3 V c 0 t : Vec Ideal S1x400x10000 .bf16) y = (V c main_v1 : S25x400x10000.Idx → Ideal .bf16) k := by
  obtain ⟨e0, e1, e2, -⟩ := idx_facts t
  unfold iblk3
  rw [View.read_apply]
  show V c main_v1 _ = V c main_v1 _
  refine congrArg (V c main_v1) (funext fun a => Fin.ext ?_)
  have hy0 : (y 0).val < 1 := (y 0).isLt
  match a with
  | ⟨0, _⟩ => show win3_0.index t (0 : Fin 3) * 1 + 1 * (y 0).val = (k 0).val; rw [e0, h0]; omega
  | ⟨1, _⟩ => show win3_0.index t (1 : Fin 3) * 400 + 1 * (y 1).val = (k 1).val; rw [e1, h1]; omega
  | ⟨2, _⟩ => show win3_0.index t (2 : Fin 3) * 10000 + 1 * (y 2).val = (k 2).val; rw [e2, h2]; omega

/-- The vector window's one block is the whole vector. -/
theorem vector_block (c : Dev nD) (t : Fin cfg3.N) (y : S1x10000.Idx) :
    (iblk3 V c 1 t : Vec Ideal S1x10000 .bf16) y = (V c main_v59 : S1x10000.Idx → Ideal .bf16) y := by
  obtain ⟨-, -, -, e3, e4, -⟩ := idx_facts t
  unfold iblk3
  rw [View.read_apply]
  show V c main_v59 _ = V c main_v59 _
  refine congrArg (V c main_v59) (funext fun a => Fin.ext ?_)
  match a with
  | ⟨0, _⟩ => show win3_1.index t (0 : Fin 2) * 1 + 1 * (y 0).val = (y 0).val; rw [e3]; omega
  | ⟨1, _⟩ => show win3_1.index t (1 : Fin 2) * 10000 + 1 * (y 1).val = (y 1).val; rw [e4]; omega

/-- What point `t` writes back is block `t` of the blocked product of the matrix and the vector as the launch finds
    them. -/
theorem flushed_eq (c : Dev nD) (t : Fin cfg3.N) :
    (dat3 V c).flushed 2 t = ((cfg3.win 2).blk t).view.read (Elt Ideal) (blockMv (V c main_v1) (V c main_v59)) := by
  show (cfg3.win 2).cut (grid3.coords t) ((dat3 V c).after 2 t) = _
  rw [after3_2]
  unfold out3_2
  rw [View.canon_unit_zero hz3]
  simp only [View.ld_unit_zero (S := S1x400x10000) hz3, View.ld_unit_zero (S := S1x10000) hz2]
  funext y
  obtain ⟨z0, z1, r, rfl⟩ : ∃ (z0 : Fin 1) (z1 : Fin 1) (r : Fin 400), y = ix3 z0 z1 r := ⟨y 0, y 1, y 2, eq_ix3 y⟩
  obtain ⟨-, -, -, -, -, e5, e6, e7⟩ := idx_facts t
  have ht : t.val < 25 := Nat.lt_of_lt_of_eq t.isLt (show cfg3.N = 25 from N_3)
  rw [View.read_apply]
  refine Eq.trans ?_ (blockMv_apply (V c main_v1) (V c main_v59) _ ⟨t.val, ht⟩ r ?_ ?_).symm
  · refine ((congrFun (congrFun (congrFun body3_eq _) _) _).trans (body_apply (iblk3 V c 0 t) (iblk3 V c 1 t) z0 z1 r)).trans ?_
    refine Finset.sum_congr rfl fun j _ => ?_
    rw [matrix_block V c t (ix3 (0 : Fin 1) r j) (ix3 (⟨t.val, ht⟩ : Fin 25) r j) rfl rfl rfl,
      vector_block V c t (ix2 (0 : Fin 1) j)]
  · show win3_2.index t (0 : Fin 3) * 1 + 1 * z0.val = t.val
    have := z0.isLt
    rw [e5]; omega
  · show win3_2.index t (2 : Fin 3) * 400 + 1 * r.val = r.val
    rw [e7]; omega

/-- An entry of the result array lies in point `t`'s block iff each coordinate is in the block's range. -/
theorem mem_blk (t : Fin cfg3.N) (i : S25x1x400.Idx) :
    i ∈ ((cfg3.win 2).blk t).view.set ↔ ∀ a : Fin 3, win3_2.index t a * S1x1x400.size a ≤ (i a).val ∧ (i a).val < win3_2.index t a * S1x1x400.size a + S1x1x400.size a := by
  show i ∈ ((View.whole main_v60).slice (win3_2.rect t)).set ↔ _
  rw [View.set_slice_whole, Rect.mem_set_unit]
  exact Iff.rfl

/-- The 25 blocks tile the result array: entry `(b, ·, r)` is in point `b`'s block. -/
theorem cover (i : S25x1x400.Idx) :
    ∃ t : Fin cfg3.N, (cfg3.win 2).flush t = true ∧ i ∈ ((cfg3.win 2).blk t).view.set := by
  have hi0 : (i 0).val < 25 := (i 0).isLt
  have hi1 : (i 1).val < 1 := (i 1).isLt
  have hi2 : (i 2).val < 400 := (i 2).isLt
  obtain ⟨t0, ht0⟩ : ∃ t0 : Fin cfg3.N, t0.val = (i 0).val :=
    ⟨⟨(i 0).val, Nat.lt_of_lt_of_eq hi0 (show cfg3.N = 25 from N_3).symm⟩, rfl⟩
  refine ⟨t0, flush3_2 t0, ?_⟩
  rw [mem_blk]
  obtain ⟨-, -, -, -, -, e5, e6, e7⟩ := idx_facts t0
  intro a
  match a with
  | ⟨0, _⟩ => show win3_2.index t0 (0 : Fin 3) * 1 ≤ (i 0).val ∧ (i 0).val < win3_2.index t0 (0 : Fin 3) * 1 + 1; rw [e5]; omega
  | ⟨1, _⟩ => show win3_2.index t0 (1 : Fin 3) * 1 ≤ (i 1).val ∧ (i 1).val < win3_2.index t0 (1 : Fin 3) * 1 + 1; rw [e6]; omega
  | ⟨2, _⟩ => show win3_2.index t0 (2 : Fin 3) * 400 ≤ (i 2).val ∧ (i 2).val < win3_2.index t0 (2 : Fin 3) * 400 + 400; rw [e7]; omega

/-- The result array after the launch is the blocked product of the matrix and the vector the launch was entered
    with. -/
theorem result (c : Dev nD) : (dat3 V c).arrAt 2 cfg3.N = blockMv (V c main_v1) (V c main_v59) :=
  (dat3 V c).arrAt_eq_of_cover 2 (blockMv (V c main_v1) (V c main_v59)) (fun t _ => flushed_eq V c t) (cover)

end Cert.KernelIdeal.Mv3

end
-- ==== Proof.KernelFold.lean ====
/-
  The kernel program's result buffer, read through the whole run, is the network of `ChebModel` at the kernel's
  own matrix-vector product.

  The run is a fold over thirteen stretches (`KernelRun`).  A host stretch applies its operations to the buffers
  it reads; a launch replaces its result array by the blocked product of the matrix blocks and the row vector it
  was entered with (`Mv0` … `Mv3`) and keeps every other buffer.  Reading the fold stretch by stretch gives, in
  order: the scaling vector `s`; the first Laplacian column `L 1`; the first layer's output `y`; the column
  `L y`; and finally the read-out of the second layer.  The product that appears every time is
  `kMv`: lay the column out as a row vector, take the blocked product with the matrix blocks, lay the 25×1×400
  result out as a column again.
-/
import proofs.«105162_g89678917141430_cont_sun_m_1004_19_alg».proof.Proof.Gen.KernelIdeal.Frame
import proofs.«105162_g89678917141430_cont_sun_m_1004_19_alg».proof.Proof.Gen.ReferenceIdeal
import proofs.«105162_g89678917141430_cont_sun_m_1004_19_alg».proof.Proof.ChebModel
import proofs.«105162_g89678917141430_cont_sun_m_1004_19_alg».proof.Proof.Mv0
import proofs.«105162_g89678917141430_cont_sun_m_1004_19_alg».proof.Proof.Mv1
import proofs.«105162_g89678917141430_cont_sun_m_1004_19_alg».proof.Proof.Mv2
import proofs.«105162_g89678917141430_cont_sun_m_1004_19_alg».proof.Proof.Mv3
import proofs.«105162_g89678917141430_cont_sun_m_1004_19_alg».proof.Proof.BlockMv
import Idealize.ShloMosaic.Lib.StableHlo.Run

set_option maxRecDepth 16384

noncomputable section

namespace Cert.KernelIdeal.Fold

open Cert.KernelIdeal Cert.KernelIdeal.Gen Cert.KernelIdeal.BlockMv
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-- The matrix as the kernel holds it: 25 blocks of 400 rows. -/
def blocksOf (x0 : FVec Ideal S1x10000x10000x1 .f32) : FVec Ideal S25x400x10000 .bf16 :=
  shapeCast S25x400x10000 (truncf .bf16 x0 bitsLt_bf16_f32) shapeCasts_S1x10000x10000x1_S25x400x10000

/-- The degrees as the kernel takes them: the sum over the three other axes of the argument's own layout. -/
def degOf (x0 : FVec Ideal S1x10000x10000x1 .f32) : FVec Ideal S10000 .f32 :=
  Host.reduceAdd x0 (constant S_ .f32 0x00000000#32) reducesTo_S1x10000x10000x1_S10000_d0_2_3 h_S_

/-- The all-ones column. -/
def ones : FVec Ideal S10000x1 .f32 := broadcastInDim S10000x1 ![] bcast_S_S10000x1 (constant S_ .f32 0x3F800000#32)

/-- A column scaled by `s` and laid out as the row vector a launch reads. -/
def rowOf (s : FVec Ideal S10000 .f32) (v : FVec Ideal S10000x1 .f32) : FVec Ideal S1x10000 .bf16 :=
  shapeCast S1x10000 (truncf .bf16 (mulf (broadcastInDim S10000x1 ![0] bcast_S10000_S10000x1_0 s) v) bitsLt_bf16_f32)
    shapeCasts_S10000x1_S1x10000

/-- The kernel's product `u ↦ A u`: the column as a row vector, the blocked product, the result as a column. -/
def kMv (x0 : FVec Ideal S1x10000x10000x1 .f32) (u : FVec Ideal S10000x1 .f32) : FVec Ideal S10000x1 .f32 :=
  shapeCast S10000x1
    (blockMv (blocksOf x0) (shapeCast S1x10000 (truncf .bf16 u bitsLt_bf16_f32) shapeCasts_S10000x1_S1x10000))
    shapeCasts_S25x1x400_S10000x1

/-- What follows a launch: its result as a column, scaled by `s` and negated. -/
def lapOut (s : FVec Ideal S10000 .f32) (r : FVec Ideal S25x1x400 .f32) : FVec Ideal S10000x1 .f32 :=
  Host.negf (mulf (broadcastInDim S10000x1 ![0] bcast_S10000_S10000x1_0 s) (shapeCast S10000x1 r shapeCasts_S25x1x400_S10000x1))

/-- The Laplacian at the kernel's product is a launch on the scaled row vector followed by `lapOut`. -/
theorem lap_kMv (x0 : FVec Ideal S1x10000x10000x1 .f32) (s : FVec Ideal S10000 .f32) (v : FVec Ideal S10000x1 .f32) :
    Cert.ChebModel.lap (kMv x0) s v = lapOut s (blockMv (blocksOf x0) (rowOf s v)) := rfl

/-- Twice a column minus another: the third Chebyshev term once the Laplacian is known. -/
def twiceMinus (l h : FVec Ideal S10000x1 .f32) : FVec Ideal S10000x1 .f32 :=
  subf (mulf (broadcastInDim S10000x1 ![] bcast_S_S10000x1 (constant S_ .f32 0x40000000#32)) l) h

theorem third_eq (mv : FVec Ideal S10000x1 .f32 → FVec Ideal S10000x1 .f32) (s : FVec Ideal S10000 .f32) (h0 h1 : FVec Ideal S10000x1 .f32) :
    Cert.ChebModel.third mv s h0 h1 = twiceMinus (Cert.ChebModel.lap mv s h1) h0 := rfl

/-! ## Each host stretch, from ANY buffer contents `V` -/

section Stretches

variable (V : Valuation τ sig (Elt Ideal))

/-- The last stretch before the first launch lays the scaled all-ones column out as a row vector. -/
theorem pre0_row : StableHlo.after hostOps0_2 V (Proc.devRef .tc main_v15) = rowOf (V (Proc.devRef .tc main_v10)) ones := by
  after_results
  rfl
theorem pre0_ones : StableHlo.after hostOps0_2 V (Proc.devRef .tc main_v11) = ones := by
  after_results
  rfl
theorem pre0_keep_main_v1 (V : Valuation τ sig (Elt Ideal)) :
    StableHlo.after hostOps0_2 V (Proc.devRef .tc main_v1) = V (Proc.devRef .tc main_v1) := by
  after_results
theorem pre0_keep_main_v10 (V : Valuation τ sig (Elt Ideal)) :
    StableHlo.after hostOps0_2 V (Proc.devRef .tc main_v10) = V (Proc.devRef .tc main_v10) := by
  after_results
theorem pre0_keep_main_arg1 (V : Valuation τ sig (Elt Ideal)) :
    StableHlo.after hostOps0_2 V (Proc.devRef .tc main_arg1) = V (Proc.devRef .tc main_arg1) := by
  after_results
theorem pre0_keep_main_arg2 (V : Valuation τ sig (Elt Ideal)) :
    StableHlo.after hostOps0_2 V (Proc.devRef .tc main_arg2) = V (Proc.devRef .tc main_arg2) := by
  after_results
theorem pre0_keep_main_arg3 (V : Valuation τ sig (Elt Ideal)) :
    StableHlo.after hostOps0_2 V (Proc.devRef .tc main_arg3) = V (Proc.devRef .tc main_arg3) := by
  after_results
theorem pre0_keep_main_arg4 (V : Valuation τ sig (Elt Ideal)) :
    StableHlo.after hostOps0_2 V (Proc.devRef .tc main_arg4) = V (Proc.devRef .tc main_arg4) := by
  after_results

/-- Between the first and second launch: the first Laplacian column, and its scaled row layout. -/
theorem mid1_lap : StableHlo.after hostOps1 V (Proc.devRef .tc main_v20) = lapOut (V (Proc.devRef .tc main_v10)) (V (Proc.devRef .tc main_v16)) := by
  after_results
  rfl
theorem mid1_row : StableHlo.after hostOps1 V (Proc.devRef .tc main_v24)
    = rowOf (V (Proc.devRef .tc main_v10)) (lapOut (V (Proc.devRef .tc main_v10)) (V (Proc.devRef .tc main_v16))) := by
  after_results
  rfl
theorem mid1_keep_main_v1 (V : Valuation τ sig (Elt Ideal)) :
    StableHlo.after hostOps1 V (Proc.devRef .tc main_v1) = V (Proc.devRef .tc main_v1) := by
  after_results
theorem mid1_keep_main_v10 (V : Valuation τ sig (Elt Ideal)) :
    StableHlo.after hostOps1 V (Proc.devRef .tc main_v10) = V (Proc.devRef .tc main_v10) := by
  after_results
theorem mid1_keep_main_v11 (V : Valuation τ sig (Elt Ideal)) :
    StableHlo.after hostOps1 V (Proc.devRef .tc main_v11) = V (Proc.devRef .tc main_v11) := by
  after_results
theorem mid1_keep_main_arg1 (V : Valuation τ sig (Elt Ideal)) :
    StableHlo.after hostOps1 V (Proc.devRef .tc main_arg1) = V (Proc.devRef .tc main_arg1) := by
  after_results
theorem mid1_keep_main_arg2 (V : Valuation τ sig (Elt Ideal)) :
    StableHlo.after hostOps1 V (Proc.devRef .tc main_arg2) = V (Proc.devRef .tc main_arg2) := by
  after_results
theorem mid1_keep_main_arg3 (V : Valuation τ sig (Elt Ideal)) :
    StableHlo.after hostOps1 V (Proc.devRef .tc main_arg3) = V (Proc.devRef .tc main_arg3) := by
  after_results
theorem mid1_keep_main_arg4 (V : Valuation τ sig (Elt Ideal)) :
    StableHlo.after hostOps1 V (Proc.devRef .tc main_arg4) = V (Proc.devRef .tc main_arg4) := by
  after_results

set_option maxHeartbeats 4000000 in
/-- Between the second and third launch: the first layer's output, and its scaled row layout. -/
theorem mid2_out : StableHlo.after hostOps2 V (Proc.devRef .tc main_v46)
    = Cert.ChebModel.mix (V (Proc.devRef .tc main_v11)) (V (Proc.devRef .tc main_v20))
        (twiceMinus (lapOut (V (Proc.devRef .tc main_v10)) (V (Proc.devRef .tc main_v25))) (V (Proc.devRef .tc main_v11))) (V (Proc.devRef .tc main_arg1)) (V (Proc.devRef .tc main_arg2)) := by
  after_results_simp
  rfl
set_option maxHeartbeats 4000000 in
theorem mid2_row : StableHlo.after hostOps2 V (Proc.devRef .tc main_v50)
    = rowOf (V (Proc.devRef .tc main_v10)) (Cert.ChebModel.mix (V (Proc.devRef .tc main_v11)) (V (Proc.devRef .tc main_v20))
        (twiceMinus (lapOut (V (Proc.devRef .tc main_v10)) (V (Proc.devRef .tc main_v25))) (V (Proc.devRef .tc main_v11))) (V (Proc.devRef .tc main_arg1)) (V (Proc.devRef .tc main_arg2))) := by
  after_results_simp
  rfl
theorem mid2_keep_main_v1 (V : Valuation τ sig (Elt Ideal)) :
    StableHlo.after hostOps2 V (Proc.devRef .tc main_v1) = V (Proc.devRef .tc main_v1) := by
  after_results
theorem mid2_keep_main_v10 (V : Valuation τ sig (Elt Ideal)) :
    StableHlo.after hostOps2 V (Proc.devRef .tc main_v10) = V (Proc.devRef .tc main_v10) := by
  after_results
theorem mid2_keep_main_arg3 (V : Valuation τ sig (Elt Ideal)) :
    StableHlo.after hostOps2 V (Proc.devRef .tc main_arg3) = V (Proc.devRef .tc main_arg3) := by
  after_results
theorem mid2_keep_main_arg4 (V : Valuation τ sig (Elt Ideal)) :
    StableHlo.after hostOps2 V (Proc.devRef .tc main_arg4) = V (Proc.devRef .tc main_arg4) := by
  after_results

/-- Between the third and fourth launch: the Laplacian of the first layer's output, and its scaled row layout. -/
theorem mid3_lap : StableHlo.after hostOps3 V (Proc.devRef .tc main_v55) = lapOut (V (Proc.devRef .tc main_v10)) (V (Proc.devRef .tc main_v51)) := by
  after_results
  rfl
theorem mid3_row : StableHlo.after hostOps3 V (Proc.devRef .tc main_v59)
    = rowOf (V (Proc.devRef .tc main_v10)) (lapOut (V (Proc.devRef .tc main_v10)) (V (Proc.devRef .tc main_v51))) := by
  after_results
  rfl
theorem mid3_keep_main_v1 (V : Valuation τ sig (Elt Ideal)) :
    StableHlo.after hostOps3 V (Proc.devRef .tc main_v1) = V (Proc.devRef .tc main_v1) := by
  after_results
theorem mid3_keep_main_v10 (V : Valuation τ sig (Elt Ideal)) :
    StableHlo.after hostOps3 V (Proc.devRef .tc main_v10) = V (Proc.devRef .tc main_v10) := by
  after_results
theorem mid3_keep_main_v46 (V : Valuation τ sig (Elt Ideal)) :
    StableHlo.after hostOps3 V (Proc.devRef .tc main_v46) = V (Proc.devRef .tc main_v46) := by
  after_results
theorem mid3_keep_main_arg3 (V : Valuation τ sig (Elt Ideal)) :
    StableHlo.after hostOps3 V (Proc.devRef .tc main_arg3) = V (Proc.devRef .tc main_arg3) := by
  after_results
theorem mid3_keep_main_arg4 (V : Valuation τ sig (Elt Ideal)) :
    StableHlo.after hostOps3 V (Proc.devRef .tc main_arg4) = V (Proc.devRef .tc main_arg4) := by
  after_results

set_option maxHeartbeats 4000000 in
/-- After the last launch: the second layer's output and the read-out. -/
theorem tail_out : StableHlo.after hostOps4_2 (StableHlo.after hostOps4_1 (StableHlo.after hostOps4 V)) (Proc.devRef .tc main_v92)
    = Cert.ChebModel.readout (Cert.ChebModel.mix (V (Proc.devRef .tc main_v46)) (V (Proc.devRef .tc main_v55))
        (twiceMinus (lapOut (V (Proc.devRef .tc main_v10)) (V (Proc.devRef .tc main_v60))) (V (Proc.devRef .tc main_v46))) (V (Proc.devRef .tc main_arg3)) (V (Proc.devRef .tc main_arg4))) := by
  after_results_simp
  rfl

end Stretches

/-! ## The fold, boundary by boundary, on one core -/

section Fold

/-- The five arguments as launched. -/
abbrev xin (c : Dev nD) : FVec Ideal S1x10000x10000x1 .f32 := m ((c : Thread nD τ).loc main_arg0)
abbrev wt0 (c : Dev nD) : FVec Ideal S3x1x1 .f32 := m ((c : Thread nD τ).loc main_arg1)
abbrev bs0 (c : Dev nD) : FVec Ideal S1 .f32 := m ((c : Thread nD τ).loc main_arg2)
abbrev wt1 (c : Dev nD) : FVec Ideal S3x1x1 .f32 := m ((c : Thread nD τ).loc main_arg3)
abbrev bs1 (c : Dev nD) : FVec Ideal S1 .f32 := m ((c : Thread nD τ).loc main_arg4)

/-- The scaling vector, the first Laplacian column, the first layer's output and its Laplacian, as the kernel
    program computes them. -/
def scale (c : Dev nD) : FVec Ideal S10000 .f32 := Cert.ChebModel.invSqrtDeg (degOf (xin m c))
def lap1 (c : Dev nD) : FVec Ideal S10000x1 .f32 := lapOut (scale m c) (blockMv (blocksOf (xin m c)) (rowOf (scale m c) ones))
def out1 (c : Dev nD) : FVec Ideal S10000x1 .f32 :=
  Cert.ChebModel.mix ones (lap1 m c) (twiceMinus (lapOut (scale m c) (blockMv (blocksOf (xin m c)) (rowOf (scale m c) (lap1 m c)))) ones)
    (wt0 m c) (bs0 m c)
def lap2 (c : Dev nD) : FVec Ideal S10000x1 .f32 := lapOut (scale m c) (blockMv (blocksOf (xin m c)) (rowOf (scale m c) (out1 m c)))

variable (c : Dev nD)

/-! ### Up to the first launch -/

theorem W2_main_v1 : W2 m ρ c (Proc.devRef .tc main_v1) = (blocksOf (xin m c)) := by
  dsimp only [W2, W1, W0, hostOps0, hostOps0_1]
  after_results
  rfl
theorem W2_main_v10 : W2 m ρ c (Proc.devRef .tc main_v10) = (scale m c) := by
  dsimp only [W2, W1, W0, hostOps0, hostOps0_1]
  after_results
  rfl
theorem W2_main_arg1 : W2 m ρ c (Proc.devRef .tc main_arg1) = (wt0 m c) := by
  dsimp only [W2, W1, W0, hostOps0, hostOps0_1]
  after_results
theorem W2_main_arg2 : W2 m ρ c (Proc.devRef .tc main_arg2) = (bs0 m c) := by
  dsimp only [W2, W1, W0, hostOps0, hostOps0_1]
  after_results
theorem W2_main_arg3 : W2 m ρ c (Proc.devRef .tc main_arg3) = (wt1 m c) := by
  dsimp only [W2, W1, W0, hostOps0, hostOps0_1]
  after_results
theorem W2_main_arg4 : W2 m ρ c (Proc.devRef .tc main_arg4) = (bs1 m c) := by
  dsimp only [W2, W1, W0, hostOps0, hostOps0_1]
  after_results

theorem W3_main_v1 : W3 m ρ c (Proc.devRef .tc main_v1) = (blocksOf (xin m c)) :=
  (pre0_keep_main_v1 (W2 m ρ c)).trans (W2_main_v1 m ρ c)
theorem W3_main_v10 : W3 m ρ c (Proc.devRef .tc main_v10) = (scale m c) :=
  (pre0_keep_main_v10 (W2 m ρ c)).trans (W2_main_v10 m ρ c)
theorem W3_main_arg1 : W3 m ρ c (Proc.devRef .tc main_arg1) = (wt0 m c) :=
  (pre0_keep_main_arg1 (W2 m ρ c)).trans (W2_main_arg1 m ρ c)
theorem W3_main_arg2 : W3 m ρ c (Proc.devRef .tc main_arg2) = (bs0 m c) :=
  (pre0_keep_main_arg2 (W2 m ρ c)).trans (W2_main_arg2 m ρ c)
theorem W3_main_arg3 : W3 m ρ c (Proc.devRef .tc main_arg3) = (wt1 m c) :=
  (pre0_keep_main_arg3 (W2 m ρ c)).trans (W2_main_arg3 m ρ c)
theorem W3_main_arg4 : W3 m ρ c (Proc.devRef .tc main_arg4) = (bs1 m c) :=
  (pre0_keep_main_arg4 (W2 m ρ c)).trans (W2_main_arg4 m ρ c)

theorem W3_main_v11 : W3 m ρ c (Proc.devRef .tc main_v11) = ones := pre0_ones (W2 m ρ c)
theorem W3_main_v15 : W3 m ρ c (Proc.devRef .tc main_v15) = rowOf (scale m c) ones :=
  (pre0_row (W2 m ρ c)).trans (by rw [W2_main_v10])

/-! ### The first launch and the stretch after it

    (The matrix blocks are one of the launch's own arrays, an input: a launch leaves its inputs as it found them.) -/

theorem W4_main_v16 : W4 m ρ c (Proc.devRef .tc main_v16) = blockMv (blocksOf (xin m c)) (rowOf (scale m c) ones) := by
  refine (W4_arr m ρ c 2).trans ?_
  refine (Cert.KernelIdeal.Mv0.result (V3 m ρ) c).trans ?_
  rw [show V3 m ρ c main_v1 = W3 m ρ c (Proc.devRef .tc main_v1) from rfl,
    show V3 m ρ c main_v15 = W3 m ρ c (Proc.devRef .tc main_v15) from rfl, W3_main_v1, W3_main_v15]

theorem W4_main_v1 : W4 m ρ c (Proc.devRef .tc main_v1) = (blocksOf (xin m c)) :=
  (W4_arr m ρ c 0).trans (((dat0 (V3 m ρ) c).arrAt_in 0 rfl cfg0.N).trans ((A_eq0 (V3 m ρ) c 0).trans (W3_main_v1 m ρ c)))
theorem W4_main_v10 : W4 m ρ c (Proc.devRef .tc main_v10) = (scale m c) :=
  (W4_of_ne m ρ c main_v10 (by decide)).trans (W3_main_v10 m ρ c)
theorem W4_main_v11 : W4 m ρ c (Proc.devRef .tc main_v11) = ones :=
  (W4_of_ne m ρ c main_v11 (by decide)).trans (W3_main_v11 m ρ c)
theorem W4_main_arg1 : W4 m ρ c (Proc.devRef .tc main_arg1) = (wt0 m c) :=
  (W4_of_ne m ρ c main_arg1 (by decide)).trans (W3_main_arg1 m ρ c)
theorem W4_main_arg2 : W4 m ρ c (Proc.devRef .tc main_arg2) = (bs0 m c) :=
  (W4_of_ne m ρ c main_arg2 (by decide)).trans (W3_main_arg2 m ρ c)
theorem W4_main_arg3 : W4 m ρ c (Proc.devRef .tc main_arg3) = (wt1 m c) :=
  (W4_of_ne m ρ c main_arg3 (by decide)).trans (W3_main_arg3 m ρ c)
theorem W4_main_arg4 : W4 m ρ c (Proc.devRef .tc main_arg4) = (bs1 m c) :=
  (W4_of_ne m ρ c main_arg4 (by decide)).trans (W3_main_arg4 m ρ c)

theorem W5_main_v20 : W5 m ρ c (Proc.devRef .tc main_v20) = (lap1 m c) :=
  (mid1_lap (W4 m ρ c)).trans (by rw [W4_main_v10, W4_main_v16]; rfl)
theorem W5_main_v24 : W5 m ρ c (Proc.devRef .tc main_v24) = rowOf (scale m c) (lap1 m c) :=
  (mid1_row (W4 m ρ c)).trans (by rw [W4_main_v10, W4_main_v16]; rfl)
theorem W5_main_v1 : W5 m ρ c (Proc.devRef .tc main_v1) = (blocksOf (xin m c)) :=
  (mid1_keep_main_v1 (W4 m ρ c)).trans (W4_main_v1 m ρ c)
theorem W5_main_v10 : W5 m ρ c (Proc.devRef .tc main_v10) = (scale m c) :=
  (mid1_keep_main_v10 (W4 m ρ c)).trans (W4_main_v10 m ρ c)
theorem W5_main_v11 : W5 m ρ c (Proc.devRef .tc main_v11) = ones :=
  (mid1_keep_main_v11 (W4 m ρ c)).trans (W4_main_v11 m ρ c)
theorem W5_main_arg1 : W5 m ρ c (Proc.devRef .tc main_arg1) = (wt0 m c) :=
  (mid1_keep_main_arg1 (W4 m ρ c)).trans (W4_main_arg1 m ρ c)
theorem W5_main_arg2 : W5 m ρ c (Proc.devRef .tc main_arg2) = (bs0 m c) :=
  (mid1_keep_main_arg2 (W4 m ρ c)).trans (W4_main_arg2 m ρ c)
theorem W5_main_arg3 : W5 m ρ c (Proc.devRef .tc main_arg3) = (wt1 m c) :=
  (mid1_keep_main_arg3 (W4 m ρ c)).trans (W4_main_arg3 m ρ c)
theorem W5_main_arg4 : W5 m ρ c (Proc.devRef .tc main_arg4) = (bs1 m c) :=
  (mid1_keep_main_arg4 (W4 m ρ c)).trans (W4_main_arg4 m ρ c)

/-! ### The second launch and the stretch after it -/

theorem W6_main_v25 : W6 m ρ c (Proc.devRef .tc main_v25) = blockMv (blocksOf (xin m c)) (rowOf (scale m c) (lap1 m c)) := by
  refine (W6_arr m ρ c 2).trans ?_
  refine (Cert.KernelIdeal.Mv1.result (V5 m ρ) c).trans ?_
  rw [show V5 m ρ c main_v1 = W5 m ρ c (Proc.devRef .tc main_v1) from rfl,
    show V5 m ρ c main_v24 = W5 m ρ c (Proc.devRef .tc main_v24) from rfl, W5_main_v1, W5_main_v24]

theorem W6_main_v1 : W6 m ρ c (Proc.devRef .tc main_v1) = (blocksOf (xin m c)) :=
  (W6_arr m ρ c 0).trans (((dat1 (V5 m ρ) c).arrAt_in 0 rfl cfg1.N).trans ((A_eq1 (V5 m ρ) c 0).trans (W5_main_v1 m ρ c)))
theorem W6_main_v10 : W6 m ρ c (Proc.devRef .tc main_v10) = (scale m c) :=
  (W6_of_ne m ρ c main_v10 (by decide)).trans (W5_main_v10 m ρ c)
theorem W6_main_v11 : W6 m ρ c (Proc.devRef .tc main_v11) = ones :=
  (W6_of_ne m ρ c main_v11 (by decide)).trans (W5_main_v11 m ρ c)
theorem W6_main_v20 : W6 m ρ c (Proc.devRef .tc main_v20) = (lap1 m c) :=
  (W6_of_ne m ρ c main_v20 (by decide)).trans (W5_main_v20 m ρ c)
theorem W6_main_arg1 : W6 m ρ c (Proc.devRef .tc main_arg1) = (wt0 m c) :=
  (W6_of_ne m ρ c main_arg1 (by decide)).trans (W5_main_arg1 m ρ c)
theorem W6_main_arg2 : W6 m ρ c (Proc.devRef .tc main_arg2) = (bs0 m c) :=
  (W6_of_ne m ρ c main_arg2 (by decide)).trans (W5_main_arg2 m ρ c)
theorem W6_main_arg3 : W6 m ρ c (Proc.devRef .tc main_arg3) = (wt1 m c) :=
  (W6_of_ne m ρ c main_arg3 (by decide)).trans (W5_main_arg3 m ρ c)
theorem W6_main_arg4 : W6 m ρ c (Proc.devRef .tc main_arg4) = (bs1 m c) :=
  (W6_of_ne m ρ c main_arg4 (by decide)).trans (W5_main_arg4 m ρ c)

theorem W7_main_v46 : W7 m ρ c (Proc.devRef .tc main_v46) = (out1 m c) :=
  (mid2_out (W6 m ρ c)).trans (by
    rw [W6_main_v11, W6_main_v20, W6_main_v10, W6_main_v25, W6_main_arg1, W6_main_arg2]; rfl)
theorem W7_main_v50 : W7 m ρ c (Proc.devRef .tc main_v50) = rowOf (scale m c) (out1 m c) :=
  (mid2_row (W6 m ρ c)).trans (by
    rw [W6_main_v11, W6_main_v20, W6_main_v10, W6_main_v25, W6_main_arg1, W6_main_arg2]; rfl)
theorem W7_main_v1 : W7 m ρ c (Proc.devRef .tc main_v1) = (blocksOf (xin m c)) :=
  (mid2_keep_main_v1 (W6 m ρ c)).trans (W6_main_v1 m ρ c)
theorem W7_main_v10 : W7 m ρ c (Proc.devRef .tc main_v10) = (scale m c) :=
  (mid2_keep_main_v10 (W6 m ρ c)).trans (W6_main_v10 m ρ c)
theorem W7_main_arg3 : W7 m ρ c (Proc.devRef .tc main_arg3) = (wt1 m c) :=
  (mid2_keep_main_arg3 (W6 m ρ c)).trans (W6_main_arg3 m ρ c)
theorem W7_main_arg4 : W7 m ρ c (Proc.devRef .tc main_arg4) = (bs1 m c) :=
  (mid2_keep_main_arg4 (W6 m ρ c)).trans (W6_main_arg4 m ρ c)

/-! ### The third launch and the stretch after it -/

theorem W8_main_v51 : W8 m ρ c (Proc.devRef .tc main_v51) = blockMv (blocksOf (xin m c)) (rowOf (scale m c) (out1 m c)) := by
  refine (W8_arr m ρ c 2).trans ?_
  refine (Cert.KernelIdeal.Mv2.result (V7 m ρ) c).trans ?_
  rw [show V7 m ρ c main_v1 = W7 m ρ c (Proc.devRef .tc main_v1) from rfl,
    show V7 m ρ c main_v50 = W7 m ρ c (Proc.devRef .tc main_v50) from rfl, W7_main_v1, W7_main_v50]

theorem W8_main_v1 : W8 m ρ c (Proc.devRef .tc main_v1) = (blocksOf (xin m c)) :=
  (W8_arr m ρ c 0).trans (((dat2 (V7 m ρ) c).arrAt_in 0 rfl cfg2.N).trans ((A_eq2 (V7 m ρ) c 0).trans (W7_main_v1 m ρ c)))
theorem W8_main_v10 : W8 m ρ c (Proc.devRef .tc main_v10) = (scale m c) :=
  (W8_of_ne m ρ c main_v10 (by decide)).trans (W7_main_v10 m ρ c)
theorem W8_main_v46 : W8 m ρ c (Proc.devRef .tc main_v46) = (out1 m c) :=
  (W8_of_ne m ρ c main_v46 (by decide)).trans (W7_main_v46 m ρ c)
theorem W8_main_arg3 : W8 m ρ c (Proc.devRef .tc main_arg3) = (wt1 m c) :=
  (W8_of_ne m ρ c main_arg3 (by decide)).trans (W7_main_arg3 m ρ c)
theorem W8_main_arg4 : W8 m ρ c (Proc.devRef .tc main_arg4) = (bs1 m c) :=
  (W8_of_ne m ρ c main_arg4 (by decide)).trans (W7_main_arg4 m ρ c)

theorem W9_main_v55 : W9 m ρ c (Proc.devRef .tc main_v55) = (lap2 m c) :=
  (mid3_lap (W8 m ρ c)).trans (by rw [W8_main_v10, W8_main_v51]; rfl)
theorem W9_main_v59 : W9 m ρ c (Proc.devRef .tc main_v59) = rowOf (scale m c) (lap2 m c) :=
  (mid3_row (W8 m ρ c)).trans (by rw [W8_main_v10, W8_main_v51]; rfl)
theorem W9_main_v1 : W9 m ρ c (Proc.devRef .tc main_v1) = (blocksOf (xin m c)) :=
  (mid3_keep_main_v1 (W8 m ρ c)).trans (W8_main_v1 m ρ c)
theorem W9_main_v10 : W9 m ρ c (Proc.devRef .tc main_v10) = (scale m c) :=
  (mid3_keep_main_v10 (W8 m ρ c)).trans (W8_main_v10 m ρ c)
theorem W9_main_v46 : W9 m ρ c (Proc.devRef .tc main_v46) = (out1 m c) :=
  (mid3_keep_main_v46 (W8 m ρ c)).trans (W8_main_v46 m ρ c)
theorem W9_main_arg3 : W9 m ρ c (Proc.devRef .tc main_arg3) = (wt1 m c) :=
  (mid3_keep_main_arg3 (W8 m ρ c)).trans (W8_main_arg3 m ρ c)
theorem W9_main_arg4 : W9 m ρ c (Proc.devRef .tc main_arg4) = (bs1 m c) :=
  (mid3_keep_main_arg4 (W8 m ρ c)).trans (W8_main_arg4 m ρ c)

/-! ### The fourth launch and the closing stretch -/

theorem W10_main_v60 : W10 m ρ c (Proc.devRef .tc main_v60) = blockMv (blocksOf (xin m c)) (rowOf (scale m c) (lap2 m c)) := by
  refine (W10_arr m ρ c 2).trans ?_
  refine (Cert.KernelIdeal.Mv3.result (V9 m ρ) c).trans ?_
  rw [show V9 m ρ c main_v1 = W9 m ρ c (Proc.devRef .tc main_v1) from rfl,
    show V9 m ρ c main_v59 = W9 m ρ c (Proc.devRef .tc main_v59) from rfl, W9_main_v1, W9_main_v59]

theorem W10_main_v10 : W10 m ρ c (Proc.devRef .tc main_v10) = (scale m c) :=
  (W10_of_ne m ρ c main_v10 (by decide)).trans (W9_main_v10 m ρ c)
theorem W10_main_v46 : W10 m ρ c (Proc.devRef .tc main_v46) = (out1 m c) :=
  (W10_of_ne m ρ c main_v46 (by decide)).trans (W9_main_v46 m ρ c)
theorem W10_main_v55 : W10 m ρ c (Proc.devRef .tc main_v55) = (lap2 m c) :=
  (W10_of_ne m ρ c main_v55 (by decide)).trans (W9_main_v55 m ρ c)
theorem W10_main_arg3 : W10 m ρ c (Proc.devRef .tc main_arg3) = (wt1 m c) :=
  (W10_of_ne m ρ c main_arg3 (by decide)).trans (W9_main_arg3 m ρ c)
theorem W10_main_arg4 : W10 m ρ c (Proc.devRef .tc main_arg4) = (bs1 m c) :=
  (W10_of_ne m ρ c main_arg4 (by decide)).trans (W9_main_arg4 m ρ c)

/-- The result buffer at the end of the run is the network at the kernel's product, the kernel's degrees and the
    all-ones column. -/
theorem result_eq : W13 m ρ c (Proc.devRef .tc main_v92)
    = Cert.ChebModel.network (kMv (xin m c)) (degOf (xin m c)) ones (wt0 m c) (bs0 m c) (wt1 m c) (bs1 m c) :=
  (tail_out (W10 m ρ c)).trans (by
    rw [W10_main_v46, W10_main_v55, W10_main_v10, W10_main_v60, W10_main_arg3, W10_main_arg4]; rfl)

end Fold

end Cert.KernelIdeal.Fold

end
-- ==== Proof.RefSide.lean ====
/-
  The reference program is the network of `ChebModel` at its own matrix-vector product.

  The reference lays the adjacency out as a 10000×10000 matrix `A` (a transpose and two reshapes of the
  argument), sums its rows for the degrees, and applies `A` to a column by one contraction.  Around these it
  runs, operation for operation, the pointwise text of `ChebModel`; the only extra step is that the first
  layer's output is given a leading axis of length one and immediately reshaped back, which changes nothing.
-/
import proofs.«105162_g89678917141430_cont_sun_m_1004_19_alg».proof.Proof.Gen.ReferenceIdeal.Read
import proofs.«105162_g89678917141430_cont_sun_m_1004_19_alg».proof.Proof.ChebModel

noncomputable section

namespace Cert.ReferenceIdeal.RefValue

open Cert.ReferenceIdeal Cert.ReferenceIdeal.Gen Cert.ReferenceIdeal.Read Cert.ChebModel
open Idealize.ShloMosaic Idealize.ShloMosaic.TcCoe Idealize.SL.Sem

variable {F : FTy → Type} [FloatOps F]

/-- The reference's product `u ↦ A u`: one contraction of the matrix layout of the argument with the column. -/
def refMv (x0 : FVec F S1x10000x10000x1 .f32) (u : FVec F S10000x1 .f32) : FVec F S10000x1 .f32 :=
  Host.dotGeneral dot_S10000x10000_S10000x1_S10000x1_1_0_0_1_n_n none (val_main_v2 (F := F) x0) u

/-- The scaling vector is `invSqrtDeg` of the row sums. -/
theorem scale_eq (x0 : FVec F S1x10000x10000x1 .f32) : val_main_v11 (F := F) x0 = invSqrtDeg (val_main_v3 (F := F) x0) := rfl

/-- First layer, second term: the Laplacian of the starting column. -/
theorem a1_eq (x0 : FVec F S1x10000x10000x1 .f32) :
    val_main_v19 (F := F) x0 = lap (refMv x0) (val_main_v11 (F := F) x0) (val_main_v13 (F := F)) := rfl

/-- First layer, third term. -/
theorem a2_eq (x0 : FVec F S1x10000x10000x1 .f32) :
    val_main_v28 (F := F) x0
      = third (refMv x0) (val_main_v11 (F := F) x0) (val_main_v13 (F := F)) (val_main_v19 (F := F) x0) := rfl

/-- First layer's output. -/
theorem y1_eq (x0 : FVec F S1x10000x10000x1 .f32) (x1 : FVec F S3x1x1 .f32) (x2 : FVec F S1 .f32) :
    val_main_v42 (F := F) x0 x1 x2
      = mix (val_main_v13 (F := F)) (val_main_v19 (F := F) x0) (val_main_v28 (F := F) x0) x1 x2 := rfl

/-- A leading axis of length one added and reshaped away again leaves the column as it was. -/
theorem relayout_eq (x0 : FVec F S1x10000x10000x1 .f32) (x1 : FVec F S3x1x1 .f32) (x2 : FVec F S1 .f32) :
    val_main_v44 (F := F) x0 x1 x2 = val_main_v42 (F := F) x0 x1 x2 := by
  funext i
  rw [val_main_v44_apply, val_main_v43_apply]
  refine congrArg (val_main_v42 (F := F) x0 x1 x2) (funext fun a => Fin.ext ?_)
  have h0 : (i 0).val < 10000 := (i 0).isLt
  have h1 : (i 1).val < 1 := (i 1).isLt
  match a with
  | ⟨0, _⟩ => show ((i 0).val * 1 + (i 1).val) / 1 % 10000 = (i 0).val; omega
  | ⟨1, _⟩ => show 0 = (i 1).val; omega

/-- Second layer, second term. -/
theorem b1_eq (x0 : FVec F S1x10000x10000x1 .f32) (x1 : FVec F S3x1x1 .f32) (x2 : FVec F S1 .f32) :
    val_main_v50 (F := F) x0 x1 x2
      = lap (refMv x0) (val_main_v11 (F := F) x0) (val_main_v44 (F := F) x0 x1 x2) := rfl

/-- Second layer, third term. -/
theorem b2_eq (x0 : FVec F S1x10000x10000x1 .f32) (x1 : FVec F S3x1x1 .f32) (x2 : FVec F S1 .f32) :
    val_main_v59 (F := F) x0 x1 x2
      = third (refMv x0) (val_main_v11 (F := F) x0) (val_main_v44 (F := F) x0 x1 x2) (val_main_v50 (F := F) x0 x1 x2) := rfl

/-- Second layer's output. -/
theorem y2_eq (x0 : FVec F S1x10000x10000x1 .f32) (x1 : FVec F S3x1x1 .f32) (x2 : FVec F S1 .f32) (x3 : FVec F S3x1x1 .f32) (x4 : FVec F S1 .f32) :
    val_main_v73 (F := F) x0 x1 x2 x3 x4
      = mix (val_main_v44 (F := F) x0 x1 x2) (val_main_v50 (F := F) x0 x1 x2) (val_main_v59 (F := F) x0 x1 x2) x3 x4 := rfl

/-- The read-out. -/
theorem out_eq (x0 : FVec F S1x10000x10000x1 .f32) (x1 : FVec F S3x1x1 .f32) (x2 : FVec F S1 .f32) (x3 : FVec F S3x1x1 .f32) (x4 : FVec F S1 .f32) :
    val_main_v84 (F := F) x0 x1 x2 x3 x4 = readout (val_main_v73 (F := F) x0 x1 x2 x3 x4) := rfl

/-- The reference's result is the network at its own product, its row sums and its all-ones column. -/
theorem ref_network (x0 : FVec F S1x10000x10000x1 .f32) (x1 : FVec F S3x1x1 .f32) (x2 : FVec F S1 .f32) (x3 : FVec F S3x1x1 .f32) (x4 : FVec F S1 .f32) :
    val_main_v84 (F := F) x0 x1 x2 x3 x4
      = network (refMv x0) (val_main_v3 (F := F) x0) (val_main_v13 (F := F)) x1 x2 x3 x4 := by
  rw [out_eq, y2_eq, b2_eq, b1_eq, relayout_eq, y1_eq, a2_eq, a1_eq, scale_eq]
  rfl

end Cert.ReferenceIdeal.RefValue

end
-- ==== Proof.Bridge.lean ====
/-
  The three places where the two programs really differ, each settled entry by entry on the extended reals.

  * The matrix.  The reference reads the argument `x[0, i, k, 0]` through a transpose and two reshapes as
    `A[i, k]`; the kernel reads it through one reshape as block `i / 400`, row `i % 400`, column `k`.
  * The degrees.  The reference sums `A` along its rows; the kernel sums the argument over its first, third
    and fourth axes.  Both are `0 + Σ_k x[0, i, k, 0]`.
  * The product with a column `u`.  The reference contracts `A` with `u`; the kernel lays `u` out as a row,
    takes the blocked product and lays the 25×1×400 result out as a column.  Both are `Σ_k x[0, i, k, 0] · u[k, 0]`;
    no sum is re-ordered and no factor moved, so nothing is asked of the entries.
  The starting column is all ones on both sides, built through different layouts.
-/
import proofs.«105162_g89678917141430_cont_sun_m_1004_19_alg».proof.Proof.Gen.ReferenceIdeal.Read
import proofs.«105162_g89678917141430_cont_sun_m_1004_19_alg».proof.Proof.RefSide
import proofs.«105162_g89678917141430_cont_sun_m_1004_19_alg».proof.Proof.KernelFold
import Idealize.ShloMosaic.Lib.ValueLayout

noncomputable section

namespace Cert.Bridge

open Idealize.ShloMosaic Idealize.ShloMosaic.TcCoe Idealize.SL.Sem Idealize.ShloMosaic.ValueIdx
open Cert.KernelIdeal.Fold Cert.KernelIdeal.BlockMv Cert.ReferenceIdeal.Read Cert.ReferenceIdeal.RefValue

local notation "XIN" => (⟨4, ![1, 10000, 10000, 1]⟩ : Shape)
local notation "COL" => (⟨2, ![10000, 1]⟩ : Shape)

/-- The reference's matrix entry `A[i, k]` is the argument at `(0, i, k, 0)`. -/
theorem adj_apply (x0 : FVec Ideal XIN .f32) (i k : Fin 10000) :
    val_main_v2 (F := Ideal) x0 (ix2 i k) = x0 (ix4 (0 : Fin 1) i k (0 : Fin 1)) := by
  rw [val_main_v2_apply, val_main_v1_apply, val_main_v0_apply]
  refine congrArg x0 (funext fun a => Fin.ext ?_)
  have hi := i.isLt
  have hk := k.isLt
  match a with
  | ⟨0, _⟩ => rfl
  | ⟨1, _⟩ =>
    show ((0 * 10000 + (i.val * 10000 + k.val) / 10000 % 10000) * 10000 + (i.val * 10000 + k.val) % 10000) / 10000 % 10000 = i.val
    omega
  | ⟨2, _⟩ =>
    show ((0 * 10000 + (i.val * 10000 + k.val) / 10000 % 10000) * 10000 + (i.val * 10000 + k.val) % 10000) % 10000 = k.val
    omega
  | ⟨3, _⟩ => rfl

/-- The kernel's matrix entry at block `b`, row `r`, column `k` is the argument at `(0, 400 b + r, k, 0)`. -/
theorem blocks_apply (x0 : FVec Ideal XIN .f32) (b : Fin 25) (r : Fin 400) (k : Fin 10000) (i : Fin 10000)
    (hi : i.val = 400 * b.val + r.val) :
    blocksOf x0 (ix3 b r k) = x0 (ix4 (0 : Fin 1) i k (0 : Fin 1)) := by
  unfold blocksOf
  refine (shapeCast_apply _ _ (ix3 b r k) (ix4 (0 : Fin 1) i k (0 : Fin 1)) ?_).trans rfl
  rw [Shape.rowMajor_val_four, Shape.rowMajor_val_three]
  show ((0 * 10000 + i.val) * 10000 + k.val) * 1 + 0 = (b.val * 400 + r.val) * 10000 + k.val
  omega

/-- The degrees agree: both programs sum `x[0, i, k, 0]` over `k`, from the same zero. -/
theorem deg_eq (x0 : FVec Ideal XIN .f32) : degOf x0 = val_main_v3 (F := Ideal) x0 := by
  funext j
  obtain ⟨i, rfl⟩ : ∃ i : Fin 10000, j = ix1 i := ⟨j 0, eq_ix1 j⟩
  rw [val_main_v3_apply]
  unfold degOf
  simp only [Host.reduceAdd, Ideal.hostReduceAdd_def]
  unfold Ideal.hostReduceAdd
  refine congrArg₂ (· + ·) rfl ?_
  symm
  refine Finset.sum_bij (fun k _ => ix4 (0 : Fin 1) i k (0 : Fin 1)) ?_ ?_ ?_ ?_
  · intro k _
    refine Finset.mem_filter.mpr ⟨Finset.mem_univ _, funext fun b => Fin.ext ?_⟩
    match b with
    | ⟨0, _⟩ => rfl
  · intro k _ k' _ h
    exact Fin.ext (congrArg (fun f => (f (2 : Fin 4)).val) h)
  · intro y hy
    have hy' := (Finset.mem_filter.mp hy).2
    have h1 : (y 1).val = i.val := congrArg (fun f => (f (0 : Fin 1)).val) hy'
    have h0 : (y 0).val < 1 := (y 0).isLt
    have h3 : (y 3).val < 1 := (y 3).isLt
    refine ⟨⟨(y 2).val, (y 2).isLt⟩, Finset.mem_univ _, funext fun a => Fin.ext ?_⟩
    match a with
    | ⟨0, _⟩ => show 0 = (y 0).val; omega
    | ⟨1, _⟩ => show i.val = (y 1).val; omega
    | ⟨2, _⟩ => rfl
    | ⟨3, _⟩ => show 0 = (y 3).val; omega
  · intro k _
    have e : idx_main_v3 (ix1 i) k = ix2 i k := funext fun a => Fin.ext (by match a with | ⟨0, _⟩ => rfl | ⟨1, _⟩ => rfl)
    rw [e, adj_apply]

/-- The starting columns agree: all ones. -/
theorem ones_eq : ones = val_main_v13 (F := Ideal) := by
  funext j
  rw [val_main_v13_apply, val_main_v12_apply]
  rfl

/-- The reference's contraction of the matrix with a column, read at an entry. -/
theorem refMv_apply (x0 : FVec Ideal XIN .f32) (u : FVec Ideal COL .f32) (i : Fin 10000) (z : Fin 1) :
    refMv x0 u (ix2 i z) = ∑ k : Fin 10000, x0 (ix4 (0 : Fin 1) i k (0 : Fin 1)) * u (ix2 k z) := by
  unfold refMv
  generalize hy : val_main_v2 (F := Ideal) x0 = y0
  simp only [Host.dotGeneral]
  rw [Ideal.dotGeneral_apply, ← Equiv.sum_comp (ValueIdx.contrEquiv1 Cert.ReferenceIdeal.dot_S10000x10000_S10000x1_S10000x1_1_0_0_1_n_n 10000 rfl rfl).symm]
  refine Finset.sum_congr rfl fun k _ => ?_
  have hk := ValueIdx.contrEquiv1_symm_val Cert.ReferenceIdeal.dot_S10000x10000_S10000x1_S10000x1_1_0_0_1_n_n 10000 rfl rfl k
  have el : Cert.ReferenceIdeal.dot_S10000x10000_S10000x1_S10000x1_1_0_0_1_n_n.lhsIdx (ix2 i z)
      ((ValueIdx.contrEquiv1 Cert.ReferenceIdeal.dot_S10000x10000_S10000x1_S10000x1_1_0_0_1_n_n 10000 rfl rfl).symm k) = ix2 i k :=
    funext fun a => Fin.ext (by
      match a with
      | ⟨0, _⟩ => exact lhs_main_v17_0 _ _
      | ⟨1, _⟩ => exact (lhs_main_v17_1 _ _).trans hk)
  have er : Cert.ReferenceIdeal.dot_S10000x10000_S10000x1_S10000x1_1_0_0_1_n_n.rhsIdx (ix2 i z)
      ((ValueIdx.contrEquiv1 Cert.ReferenceIdeal.dot_S10000x10000_S10000x1_S10000x1_1_0_0_1_n_n 10000 rfl rfl).symm k) = ix2 k z :=
    funext fun a => Fin.ext (by
      match a with
      | ⟨0, _⟩ => exact (rhs_main_v17_0 _ _).trans hk
      | ⟨1, _⟩ => exact rhs_main_v17_1 _ _)
  rw [el, er, ← hy, adj_apply]

/-- The kernel's product with a column, read at an entry: row `i` is row `i % 400` of block `i / 400`. -/
theorem kMv_apply (x0 : FVec Ideal XIN .f32) (u : FVec Ideal COL .f32) (i : Fin 10000) (z : Fin 1) :
    kMv x0 u (ix2 i z) = ∑ k : Fin 10000, x0 (ix4 (0 : Fin 1) i k (0 : Fin 1)) * u (ix2 k z) := by
  unfold kMv
  have hz : z.val = 0 := by omega
  have hb : i.val / 400 < 25 := by have := i.isLt; omega
  have hr : i.val % 400 < 400 := Nat.mod_lt _ (by decide)
  refine (shapeCast_apply _ _ (ix2 i z) (ix3 (⟨i.val / 400, hb⟩ : Fin 25) (0 : Fin 1) (⟨i.val % 400, hr⟩ : Fin 400)) ?_).trans ?_
  · rw [Shape.rowMajor_val_three, Shape.rowMajor_val_two]
    show ((i.val / 400) * 1 + 0) * 400 + i.val % 400 = i.val * 1 + z.val
    omega
  refine (blockMv_apply _ _ _ ⟨i.val / 400, hb⟩ ⟨i.val % 400, hr⟩ rfl rfl).trans ?_
  refine Finset.sum_congr rfl fun k _ => ?_
  refine congrArg₂ (· * ·) (blocks_apply x0 _ _ k i (by show i.val = 400 * (i.val / 400) + i.val % 400; omega)) ?_
  refine (shapeCast_apply _ _ (ix2 (0 : Fin 1) k) (ix2 k z) ?_).trans rfl
  rw [Shape.rowMajor_val_two, Shape.rowMajor_val_two]
  show k.val * 1 + z.val = 0 * 10000 + k.val
  omega

/-- The two products are one function. -/
theorem mv_eq (x0 : FVec Ideal XIN .f32) : kMv x0 = refMv x0 := by
  funext u j
  obtain ⟨i, z, rfl⟩ : ∃ (i : Fin 10000) (z : Fin 1), j = ix2 i z := ⟨j 0, j 1, eq_ix2 j⟩
  rw [kMv_apply, refMv_apply]

/-- The kernel program's network is the reference's result term, for any arguments. -/
theorem network_eq (x0 : FVec Ideal XIN .f32) (x1 : FVec Ideal (⟨3, ![3, 1, 1]⟩ : Shape) .f32) (x2 : FVec Ideal (⟨1, ![1]⟩ : Shape) .f32)
    (x3 : FVec Ideal (⟨3, ![3, 1, 1]⟩ : Shape) .f32) (x4 : FVec Ideal (⟨1, ![1]⟩ : Shape) .f32) :
    Cert.ChebModel.network (kMv x0) (degOf x0) ones x1 x2 x3 x4 = val_main_v84 (F := Ideal) x0 x1 x2 x3 x4 := by
  rw [ref_network, mv_eq, deg_eq, ones_eq]

end Cert.Bridge

end
-- ==== Proof.lean ====
/-
  The certificate: a two-layer Chebyshev graph network on 10000 nodes, computed by a program that streams the
  adjacency matrix through four matrix-vector launches, equals its plain reference over the extended reals.

  Both programs compute `ChebModel.network` of a matrix-vector product, a degree vector and a starting column
  (`KernelFold.result_eq` for the kernel program read through its whole run, `RefSide.ref_network` for the
  reference); the three ingredients agree entry by entry (`Bridge`): the kernel's blocked, row-laid-out product is
  the reference's contraction because both are `Σ_k x[0, i, k, 0] · u[k]` with the terms in the same places, the
  degrees are the same row sums from the same zero, and the starting columns are all ones.  Only re-indexing of
  sums is used — no distributivity and no cancellation — so the finiteness of the inputs is never needed.

  The three frame claims are the generated frames (the reference's is its generated run with the result dropped);
  the idealization rewrote nothing, so the `preserves` claim is `True`.
-/
import proofs.«105162_g89678917141430_cont_sun_m_1004_19_alg».proof.Defs
import proofs.«105162_g89678917141430_cont_sun_m_1004_19_alg».proof.Proof.Gen.Kernel
import proofs.«105162_g89678917141430_cont_sun_m_1004_19_alg».proof.Proof.Gen.Kernel.Frame
import proofs.«105162_g89678917141430_cont_sun_m_1004_19_alg».proof.Proof.Gen.KernelIdeal
import proofs.«105162_g89678917141430_cont_sun_m_1004_19_alg».proof.Proof.Gen.KernelIdeal.Frame
import proofs.«105162_g89678917141430_cont_sun_m_1004_19_alg».proof.Proof.Gen.ReferenceIdeal
import proofs.«105162_g89678917141430_cont_sun_m_1004_19_alg».proof.Proof.Gen.Pre_finite_inputs
import proofs.«105162_g89678917141430_cont_sun_m_1004_19_alg».proof.Proof.Gen.ReferenceIdeal.Run
import proofs.«105162_g89678917141430_cont_sun_m_1004_19_alg».proof.Proof.Gen.ReferenceIdeal.Read
import proofs.«105162_g89678917141430_cont_sun_m_1004_19_alg».proof.Proof.KernelRun
import proofs.«105162_g89678917141430_cont_sun_m_1004_19_alg».proof.Proof.KernelFold
import proofs.«105162_g89678917141430_cont_sun_m_1004_19_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

section Kernel

open Cert.KernelIdeal Cert.KernelIdeal.Gen Cert.KernelIdeal.Fold

/-- The idealized kernel program's run with its result named: every execution ends with the result buffer at the
    network of the kernel's own product, degrees and starting column, and the arguments as launched. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v92)
          = Cert.ChebModel.network (kMv (xin m c)) (degOf (xin m c)) ones (wt0 m c) (bs0 m c) (wt1 m c) (bs1 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
      ⟨(h c _ (mem_uc main_v92 (by decide))).trans (result_eq m ρ c),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c)⟩)
    (Cert.KernelIdeal.Whole.run_all m ρ)

end Kernel

/-- From memories that agree on the five arguments the two idealized programs end with the same result array: the
    network of one and the same product, degrees and starting column. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v84_eq, (hagree c).1, (hagree c).2.1, (hagree c).2.2.1, (hagree c).2.2.2.1,
    (hagree c).2.2.2.2]
  exact (Cert.Bridge.network_eq _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
